-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S10000x64 : Shape := ⟨2, ![10000, 64]⟩
abbrev S2000x128 : Shape := ⟨2, ![2000, 128]⟩
abbrev S400x10000 : Shape := ⟨2, ![400, 10000]⟩
abbrev S400x64 : Shape := ⟨2, ![400, 64]⟩
abbrev S400x128 : Shape := ⟨2, ![400, 128]⟩
abbrev S400 : Shape := ⟨1, ![400]⟩
abbrev S400x1 : Shape := ⟨2, ![400, 1]⟩

abbrev nBuf : Space → Nat
  | .hbm => 11
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x128, .f32⟩
  | .hbm, ⟨7, _⟩ => ⟨S1x64, .f32⟩
  | .hbm, ⟨8, _⟩ => ⟨S10000x128, .f32⟩
  | .hbm, ⟨9, _⟩ => ⟨S10000x64, .f32⟩
  | .hbm, ⟨10, _⟩ => ⟨S10000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S400x10000, .f32⟩
  | .local _ .vmem, ⟨6, _⟩ => ⟨S400x10000, .f32⟩
  | .local _ .vmem, ⟨7, _⟩ => ⟨S10000x128, .f32⟩
  | .local _ .vmem, ⟨8, _⟩ => ⟨S1x128, .f32⟩
  | .local _ .vmem, ⟨9, _⟩ => ⟨S128x64, .f32⟩
  | .local _ .vmem, ⟨10, _⟩ => ⟨S400x64, .f32⟩
  | .local _ .vmem, ⟨11, _⟩ => ⟨S400x64, .f32⟩
  | .local _ .vmem, ⟨12, _⟩ => ⟨S400x10000, .f32⟩
  | .local _ .vmem, ⟨13, _⟩ => ⟨S400x10000, .f32⟩
  | .local _ .vmem, ⟨14, _⟩ => ⟨S10000x64, .f32⟩
  | .local _ .vmem, ⟨15, _⟩ => ⟨S1x64, .f32⟩
  | .local _ .vmem, ⟨16, _⟩ => ⟨S400x64, .f32⟩
  | .local _ .vmem, ⟨17, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S128_S1x128 : S128.ShapeCasts S1x128
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x64_S128x64_0_0 : ∀ a, (![0, 0] : Fin 2 → Nat) a + S128x64.size a ≤ S128x64.size a
  h_S128x64 : 0 < S128x64.numel
  inb_S400x64_S400x64_0_0 : ∀ a, (![0, 0] : Fin 2 → Nat) a + S400x64.size a ≤ S400x64.size a
  h_S400x64 : 0 < S400x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  reduces_S400x64_S400 : S400x64.Reduces [1] S400
  shapeCasts_S400_S400x1 : S400.ShapeCasts S400x1
  broadcasts_S400x1_S400x64 : S400x1.Broadcasts S400x64
  dot_S2000x128_S128x128_S2000x128_1_0_0_1_n_n_wf : DotDims.WF S2000x128 S128x128 S2000x128 [1] [0] [0] [1] [] []
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S10000x128.size a
  hwx0_2 : ∀ i : grid0.Coords, EltTy.bits .f32 = 32 ∨ (Rect.block (s := S10000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x64.size a ≤ S10000x64.size a
  hwx1_4 : ∀ i : grid1.Coords, EltTy.bits .f32 = 32 ∨ (Rect.block (s := S10000x64) S400x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .f32 = 32 ∨ (Rect.block (s := S10000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x64.size a ≤ S10000x64.size a
  hwx2_3 : ∀ i : grid2.Coords, EltTy.bits .f32 = 32 ∨ (Rect.block (s := S10000x64) S400x64.size (cc2_transform_3 i) (hinb2_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v2) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v0) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v3) S400x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v3) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v1) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S400x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x64, .f32⟩
  | .hbm, ⟨26, _⟩ => ⟨S10000x64, .f32⟩
  | .hbm, ⟨27, _⟩ => ⟨S10000x64, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x64, .f32⟩
  | .hbm, ⟨33, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_call0_cst_0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_cst_1 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_v12 : Ref sig .tc := ⟨.hbm, 33, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.LibERealSum.lean ====
/-
  Finite sums on the extended reals.

  The extended reals are not a semiring: `(a + b) · c = a · c + b · c` fails when `a` and `b` are opposite
  infinities. Two facts survive and are what a proof needs when a quotient by a positive real has to cross a
  finite sum: a sum of real numbers, read in the extended reals, is the real sum; and multiplication by a
  NONNEGATIVE REAL distributes over a finite sum of arbitrary extended reals.
-/
import Mathlib.Data.EReal.Inv

namespace Cert.Lib

open scoped BigOperators

/-- A finite sum of reals, read in the extended reals, is the real sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Multiplication by a nonnegative real distributes over a finite sum of arbitrary extended reals. -/
theorem sum_mul_coe {ι : Type*} (s : Finset ι) (x : ι → EReal) {c : ℝ} (hc : 0 ≤ c) :
    (∑ i ∈ s, x i) * (c : EReal) = ∑ i ∈ s, x i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

end Cert.Lib
-- ==== Proof.Spec.lean ====
/-
  A two-layer graph convolution with a row-wise log-softmax, entry by entry, on the extended reals.

  With adj an N × N matrix, x the N × F features, w1, w2 the weights and b1, b2 the biases (given as functions of
  the column), the network is

      g = x · w1,   h = max (adj · g + b1, 0),   p = h · w2,   z = adj · p + b2,   out = log-softmax of each row of z.

  Each stage is ONE function of the result index.  The last stage is written in the two ways the programs spell it.
  With M the running maximum of a row from −∞ and L = log ∑ₖ exp (zₖ − M):

      z_q − (M + L)                 (the maximum added back to the logarithm, then one subtraction)
      (z_q − max (−∞, M)) − L       (the row shifted by its maximum first).

  On the extended reals the two differ at infinite entries (−(M + L) is not −M − L when M = +∞ and L = −∞); they
  agree when every entry of the row is a real number, which is the case when every input entry is.  That the entries
  of z are real follows stage by stage: finite sums, products and maxima of real numbers are real.
-/
import Idealize.ShloMosaic.PureOps.Ideal.Laws
import Idealize.ShloMosaic.Lib.ValueIdx
import proofs.«149536_g52450140619141_cont_8to1_c_1019_3_alg».proof.Proof.LibERealSum

noncomputable section

open scoped BigOperators

namespace Cert.Gcn

open Idealize.ShloMosaic Idealize.ShloMosaic.ValueIdx

variable {A K B : ℕ}

/-! ## The stages -/

/-- The product of an [A, K] and a [K, B] matrix. -/
def mm (l : FVec Ideal ⟨2, ![A, K]⟩ .f32) (r : FVec Ideal ⟨2, ![K, B]⟩ .f32) : FVec Ideal ⟨2, ![A, B]⟩ .f32 := fun i =>
  ∑ k : Fin K, l (ix2 (⟨(i 0).val, idx2_lt0 i⟩ : Fin A) k) * r (ix2 k (⟨(i 1).val, idx2_lt1 i⟩ : Fin B))

theorem mm_ix2 (l : FVec Ideal ⟨2, ![A, K]⟩ .f32) (r : FVec Ideal ⟨2, ![K, B]⟩ .f32) (p : Fin A) (q : Fin B) :
    mm l r (ix2 p q) = ∑ k : Fin K, l (ix2 p k) * r (ix2 k q) := rfl

/-- A bias, one value per column, added to every row. -/
def addBias (z : FVec Ideal ⟨2, ![A, B]⟩ .f32) (bias : Fin B → EReal) : FVec Ideal ⟨2, ![A, B]⟩ .f32 := fun i =>
  z i + bias (⟨(i 1).val, idx2_lt1 i⟩ : Fin B)

theorem addBias_ix2 (z : FVec Ideal ⟨2, ![A, B]⟩ .f32) (bias : Fin B → EReal) (p : Fin A) (q : Fin B) :
    addBias z bias (ix2 p q) = z (ix2 p q) + bias q := rfl

/-- The maximum with zero (the f32 word 0). -/
def relu (z : FVec Ideal ⟨2, ![A, B]⟩ .f32) : FVec Ideal ⟨2, ![A, B]⟩ .f32 := fun i =>
  max (z i) (Ideal.ofBits .f32 0x00000000#32)

theorem relu_apply (z : FVec Ideal ⟨2, ![A, B]⟩ .f32) (i : (⟨2, ![A, B]⟩ : Shape).Idx) :
    relu z i = max (z i) (Ideal.ofBits .f32 0x00000000#32) := rfl

/-- The running maximum of a row from the f32 word for −∞. -/
def top (z : Fin B → EReal) : EReal :=
  (Finset.univ : Finset (Fin B)).fold max (Ideal.ofBits .f32 0xFF800000#32) z

/-- The log-softmax of a row, the maximum added back to the logarithm before the one subtraction. -/
def lsmAdd (z : Fin B → EReal) (q : Fin B) : EReal :=
  z q - (top z + Ideal.log (∑ k : Fin B, Ideal.exp (z k - top z)))

/-- The log-softmax of a row, the row shifted by its maximum first. -/
def lsmShift (z : Fin B → EReal) (q : Fin B) : EReal :=
  (z q - max (Ideal.ofBits .f32 0xFF800000#32) (top z))
    - Ideal.log (∑ k : Fin B, Ideal.exp (z k - max (Ideal.ofBits .f32 0xFF800000#32) (top z)))

/-- Row p of a matrix. -/
def row (z : FVec Ideal ⟨2, ![A, B]⟩ .f32) (p : Fin A) : Fin B → EReal := fun c => z (ix2 p c)

/-- The log-softmax of every row, in the first spelling, as one function of the result index. -/
def lsmRows (z : FVec Ideal ⟨2, ![A, B]⟩ .f32) : FVec Ideal ⟨2, ![A, B]⟩ .f32 := fun i =>
  lsmAdd (row z (⟨(i 0).val, idx2_lt0 i⟩ : Fin A)) (⟨(i 1).val, idx2_lt1 i⟩ : Fin B)

theorem lsmRows_ix2 (z : FVec Ideal ⟨2, ![A, B]⟩ .f32) (p : Fin A) (q : Fin B) :
    lsmRows z (ix2 p q) = lsmAdd (row z p) q := rfl

/-- The whole network: the result array as one function of the six inputs (the biases as functions of the column). -/
def net {N F H C : ℕ} (x : FVec Ideal ⟨2, ![N, F]⟩ .f32) (adj : FVec Ideal ⟨2, ![N, N]⟩ .f32)
    (w1 : FVec Ideal ⟨2, ![F, H]⟩ .f32) (b1 : Fin H → EReal) (w2 : FVec Ideal ⟨2, ![H, C]⟩ .f32) (b2 : Fin C → EReal) :
    FVec Ideal ⟨2, ![N, C]⟩ .f32 :=
  lsmRows (addBias (mm adj (mm (relu (addBias (mm adj (mm x w1)) b1)) w2)) b2)

/-! ## Real entries -/

/-- An extended real that is a real number. -/
def IsR (v : EReal) : Prop := ∃ r : ℝ, v = (r : EReal)

theorem IsR.add {a b : EReal} (ha : IsR a) (hb : IsR b) : IsR (a + b) := by
  obtain ⟨r, rfl⟩ := ha; obtain ⟨s, rfl⟩ := hb; exact ⟨r + s, (EReal.coe_add r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.max {a b : EReal} (ha : IsR a) (hb : IsR b) : IsR (max a b) := by
  rcases max_choice a b with h | h <;> rw [h] <;> assumption

theorem IsR.sum {ι : Type} (s : Finset ι) (f : ι → EReal) (h : ∀ i, IsR (f i)) : IsR (∑ i ∈ s, f i) := by
  choose g hg using h
  exact ⟨∑ i ∈ s, g i, by rw [← Cert.Lib.sum_coe]; exact Finset.sum_congr rfl fun i _ => hg i⟩

theorem isR_zero : IsR (Ideal.ofBits .f32 0x00000000#32) := ⟨0, by rw [Ideal.ofBits_zero_f32]; rfl⟩

theorem mm_isR (l : FVec Ideal ⟨2, ![A, K]⟩ .f32) (r : FVec Ideal ⟨2, ![K, B]⟩ .f32) (hl : ∀ i, IsR (l i)) (hr : ∀ i, IsR (r i))
    (i : (⟨2, ![A, B]⟩ : Shape).Idx) : IsR (mm l r i) :=
  IsR.sum _ _ fun k => (hl _).mul (hr _)

theorem addBias_isR (z : FVec Ideal ⟨2, ![A, B]⟩ .f32) (bias : Fin B → EReal) (hz : ∀ i, IsR (z i)) (hb : ∀ q, IsR (bias q))
    (i : (⟨2, ![A, B]⟩ : Shape).Idx) : IsR (addBias z bias i) := (hz i).add (hb _)

theorem relu_isR (z : FVec Ideal ⟨2, ![A, B]⟩ .f32) (hz : ∀ i, IsR (z i)) (i : (⟨2, ![A, B]⟩ : Shape).Idx) : IsR (relu z i) :=
  (hz i).max isR_zero

/-! ## The two spellings of the log-softmax agree on a row of real numbers -/

theorem negInf : Ideal.ofBits .f32 0xFF800000#32 = ⊥ := by simp [Ideal.ofBits, Ideal.ieee]

theorem max_negInf_top (z : Fin B → EReal) : max (Ideal.ofBits .f32 0xFF800000#32) (top z) = top z := by
  rw [negInf]; exact max_eq_right bot_le

/-- The running maximum of a nonempty row of real numbers is a real number. -/
theorem top_isR (hB : 0 < B) (z : Fin B → EReal) (hz : ∀ k, IsR (z k)) : IsR (top z) := by
  have hne_top : top z ≠ ⊤ := by
    refine ne_of_lt ?_
    unfold top
    rw [Finset.fold_max_lt]
    refine ⟨by rw [negInf]; exact bot_lt_top, fun k _ => ?_⟩
    obtain ⟨r, hr⟩ := hz k; rw [hr]; exact EReal.coe_lt_top r
  have hne_bot : top z ≠ ⊥ := by
    refine ne_of_gt ?_
    obtain ⟨r, hr⟩ := hz ⟨0, hB⟩
    refine lt_of_lt_of_le (EReal.bot_lt_coe r) ?_
    unfold top
    rw [Finset.le_fold_max]
    exact Or.inr ⟨⟨0, hB⟩, Finset.mem_univ _, hr.ge⟩
  exact ⟨(top z).toReal, (EReal.coe_toReal hne_top hne_bot).symm⟩

/-- On a nonempty row of real numbers the two spellings of the log-softmax are one number. -/
theorem lsmShift_eq_lsmAdd (hB : 0 < B) (z : Fin B → EReal) (hz : ∀ k, IsR (z k)) (q : Fin B) :
    lsmShift z q = lsmAdd z q := by
  unfold lsmShift lsmAdd
  rw [max_negInf_top]
  obtain ⟨M, hM⟩ := top_isR hB z hz
  choose zr hzr using hz
  rw [hM]
  have hterm : ∀ k, Ideal.exp (z k - (M : EReal)) = ((Real.exp (zr k - M) : ℝ) : EReal) := fun k => by
    rw [hzr k, ← EReal.coe_sub]; rfl
  have hsum : (∑ k : Fin B, Ideal.exp (z k - (M : EReal))) = ((∑ k : Fin B, Real.exp (zr k - M) : ℝ) : EReal) := by
    rw [← Cert.Lib.sum_coe]; exact Finset.sum_congr rfl fun k _ => hterm k
  have hpos : 0 < ∑ k : Fin B, Real.exp (zr k - M) :=
    Finset.sum_pos (fun k _ => Real.exp_pos _) ⟨⟨0, hB⟩, Finset.mem_univ _⟩
  rw [hsum, Ideal.log_coe, if_neg (not_le.2 hpos), hzr q, ← EReal.coe_sub, ← EReal.coe_sub, ← EReal.coe_add, ← EReal.coe_sub]
  exact congrArg _ (by ring)

end Cert.Gcn

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibKeepdims.lean ====
/-
  A reduction over the last axis of a matrix, kept as a column and broadcast back along the rows — the form a sum or a
  maximum with `keepdims` takes inside a kernel body: the reduction of an [a, n] matrix to a vector [a], a shape cast of the
  vector to the column [a, 1], a broadcast of the column to [a, b]. Read at (p, c), the result is the reduction of row p:
  a sum over the row's n entries, or the fold of `max` over them from the accumulator's value. The two layout steps are
  stated for any element type; the two reductions are read at the extended reals, where a sum has no order.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib

open Idealize.ShloMosaic Idealize.ShloMosaic.ValueIdx

section Layout
variable {α : Type}

/-- A vector [a] cast to the column [a, 1] reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector [a] kept as a column and broadcast to [a, b] reads, at (p, c), the vector at p. -/
theorem keepdims_apply {a b : ℕ} (x : (⟨1, ![a]⟩ : Shape).Idx → α) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ x h2) h3 (ix2 p c) = x (ix1 p) :=
  (broadcastTo_a1_ab_apply _ h3 p c).trans (shapeCast_a_a1_apply x h2 p 0)

end Layout

/-- The index of an [a, n] matrix that reduces along axis 1 to row p, at coordinate k, is (p, k). -/
theorem lift_row {a n : ℕ} (h : (⟨2, ![a, n]⟩ : Shape).Reduces [1] ⟨1, ![a]⟩) (p : Fin a) (k : Fin n) :
    h.lift (ix1 p) k = ix2 p k := by
  funext d; apply Fin.ext
  match d with | ⟨0, _⟩ => rfl | ⟨1, _⟩ => rfl

/-- A sum over the last axis of an [a, n] matrix, read at row p: the sum of the row's entries. -/
theorem rowSum_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the last axis of an [a, n] matrix, read at row p: the fold of `max` over the row's entries from the
    accumulator's value. -/
theorem rowMax_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin n)).fold max (Ideal.ofBits φ acc) (fun k => src (ix2 p k)) := by
  refine (Ideal.multiReduction_maximumf_single src acc h hφ hacc (ix1 p)).trans ?_
  have hg : (src ∘ h.lift (ix1 p)) = fun k => src (ix2 p k) := funext fun k => congrArg src (lift_row h p k)
  rw [hg]
  rfl

/-- The row sum kept as a column and broadcast along the row. -/
theorem rowSum_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .add [1] ⟨1, ![a]⟩ src acc h hφ hacc) h2) h3 (ix2 p c)
      = ∑ k : Fin n, src (ix2 p k) :=
  (keepdims_apply _ h2 h3 p c).trans (rowSum_apply src acc h hφ hacc p)

/-- The row maximum kept as a column and broadcast along the row. -/
theorem rowMax_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .maximumf [1] ⟨1, ![a]⟩ src acc h hφ hacc) h2) h3 (ix2 p c)
      = (Finset.univ : Finset (Fin n)).fold max (Ideal.ofBits φ acc) (fun k => src (ix2 p k)) :=
  (keepdims_apply _ h2 h3 p c).trans (rowMax_apply src acc h hφ hacc p)

end Cert.Lib

end
-- ==== Proof.LibEntryReads.lean ====
/-
  Operations of a kernel body and of the host read at one entry, at the extended reals: rewriting rules for pushing
  an index through a body.

  A product whose dimension numbers are those of a plain matrix product ("contract axis 1 of the left operand with
  axis 0 of the right, no batch axes") — the kernel's into the zero accumulator, or the host's — of an [A, K] and a
  [K, B] matrix, read at (p, q), is ∑ₖ l (p, k) · r (k, q): only row p of the left operand enters.  Both are stated
  for ANY dimension record equal to the plain one, so that a program's own record is rewritten without restating it.
  The reciprocal square root, the exponential and the logarithm, of a vector or of a host tensor, act entry by entry.
  Together with the library's entrywise rules for the arithmetic operations these push a whole body applied to an
  index (p, q) down to the entries of its loaded blocks, by one simplification pass.
-/
import Idealize.ShloMosaic.Lib.ValueLayout
import proofs.«149536_g52450140619141_cont_8to1_c_1019_3_alg».proof.Proof.LibMatmul2
import proofs.«149536_g52450140619141_cont_8to1_c_1019_3_alg».proof.Proof.LibKeepdims

noncomputable section

open scoped BigOperators

namespace Cert.Lib

open Idealize.ShloMosaic Idealize.ShloMosaic.ValueIdx

variable {A K B : ℕ} {φ₁ φ₂ φ : FTy} {s : Shape}

/-- A product whose dimension numbers are those of a plain matrix product, into the zero accumulator, at (p, q). -/
theorem matmul_plain_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (r : FVec Ideal ⟨2, ![K, B]⟩ φ₂) (p : Fin A) (q : Fin B) :
    matmul D none l r (constant ⟨2, ![A, B]⟩ .f32 0x00000000#32) (ix2 p q) = ∑ k : Fin K, l (ix2 p k) * r (ix2 k q) := by
  subst hD
  exact Cert.Lib.matmul2_zero_apply wf l r p q

/-- The host's product with those dimension numbers, at (p, q). -/
theorem dotGeneral_plain_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (r : FVec Ideal ⟨2, ![K, B]⟩ φ₂) (p : Fin A) (q : Fin B) :
    Host.dotGeneral D none l r (ix2 p q) = ∑ k : Fin K, l (ix2 p k) * r (ix2 k q) := by
  subst hD
  refine (Ideal.dotGeneral_apply (Cert.Lib.plain2 wf) none .single l r (ix2 p q)).trans ?_
  exact (Ideal.matmul_constant_zero_apply (Cert.Lib.plain2 wf) none l r (ix2 p q)).symm.trans
    (Cert.Lib.matmul2_zero_apply wf l r p q)

/-- The pointwise transcendental operations, of a kernel vector and of a host tensor, act entry by entry. -/
theorem rsqrt_apply (a : FVec Ideal s φ) (i : s.Idx) : rsqrt a i = Ideal.rsqrt (a i) := rfl
theorem exp_apply (a : FVec Ideal s φ) (i : s.Idx) : exp a i = Ideal.exp (a i) := rfl
theorem log_apply (a : FVec Ideal s φ) (i : s.Idx) : log a i = Ideal.log (a i) := rfl
theorem host_rsqrt_apply (a : FVec Ideal s φ) (i : s.Idx) : Host.rsqrt a i = Ideal.rsqrt (a i) := rfl
theorem host_exp_apply (a : FVec Ideal s φ) (i : s.Idx) : Host.exp a i = Ideal.exp (a i) := rfl
theorem host_log_apply (a : FVec Ideal s φ) (i : s.Idx) : Host.log a i = Ideal.log (a i) := rfl

end Cert.Lib

end
-- ==== Proof.Tiles.lean ====
/-
  What a tile of rows computes in each of the three kernels, read at one entry, at the extended reals.

  A tile is a block of rows of the left operand of a matrix product; every column of the right operand is present.
  Kernel one's tile is the product x · w1 of the tile's rows.  Kernel two's is max (a · g + b, 0) · w2, the bias b a
  one-row matrix repeated along the rows.  Kernel three's is the log-softmax, the maximum added back to the logarithm,
  of the rows of a · p + b.  Each is the corresponding stage of the network applied to the tile's rows — only row p
  of the left operand enters entry (p, q) — so a tile's entry is stated with the stage functions themselves.
-/
import Idealize.ShloMosaic.Lib.ValueLayout
import proofs.«149536_g52450140619141_cont_8to1_c_1019_3_alg».proof.Proof.Spec
import proofs.«149536_g52450140619141_cont_8to1_c_1019_3_alg».proof.Proof.LibEntryReads
import proofs.«149536_g52450140619141_cont_8to1_c_1019_3_alg».proof.Proof.Gen.KernelIdeal.Skeleton

noncomputable section

open scoped BigOperators

namespace Cert.Gcn

open Idealize.ShloMosaic Idealize.ShloMosaic.ValueIdx

variable {A K B : ℕ}

/-- A product of plain dimension numbers into the zero accumulator is the product stage. -/
theorem matmul_eq_mm (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ .f32) (r : FVec Ideal ⟨2, ![K, B]⟩ .f32) :
    matmul D none l r (constant ⟨2, ![A, B]⟩ .f32 0x00000000#32) = mm l r := by
  funext i
  obtain ⟨p, q, rfl⟩ : ∃ (p : Fin A) (q : Fin B), i = ix2 p q := ⟨i 0, i 1, eq_ix2 i⟩
  exact Cert.Lib.matmul_plain_apply D wf hD l r p q

/-- A one-row matrix (recast to its own shape) repeated along the rows and added is the bias stage. -/
theorem addRow_eq_addBias (z : FVec Ideal ⟨2, ![A, B]⟩ .f32) (r : FVec Ideal ⟨2, ![1, B]⟩ .f32)
    (hs : (⟨2, ![1, B]⟩ : Shape).ShapeCasts ⟨2, ![1, B]⟩) (hb : (⟨2, ![1, B]⟩ : Shape).Broadcasts ⟨2, ![A, B]⟩) :
    addf z (broadcastTo ⟨2, ![A, B]⟩ (shapeCast ⟨2, ![1, B]⟩ r hs) hb) = addBias z (fun j => r (ix2 (0 : Fin 1) j)) := by
  funext i
  obtain ⟨p, q, rfl⟩ : ∃ (p : Fin A) (q : Fin B), i = ix2 p q := ⟨i 0, i 1, eq_ix2 i⟩
  show z (ix2 p q) + broadcastTo ⟨2, ![A, B]⟩ (shapeCast ⟨2, ![1, B]⟩ r hs) hb (ix2 p q) = _
  rw [shapeCast_self, broadcastTo_1b_ab_apply r hb p q]
  rfl

/-- The maximum with the zero word repeated over the shape is the activation stage. -/
theorem max_zero_eq_relu (z : FVec Ideal ⟨2, ![A, B]⟩ .f32) :
    maximumf z (broadcast ⟨2, ![A, B]⟩ (Scalar.ofBits (F := Ideal) .f32 0x00000000#32)) = relu z := rfl

/-- The log-softmax of a tile's rows as a kernel body spells it: the row maximum kept as a column, the shifted
    exponentials summed along the row, the logarithm of that column added to the maximum column, the sum repeated
    along the row and subtracted. -/
theorem lsm_tile (z : FVec Ideal ⟨2, ![A, B]⟩ .f32)
    (hred : (⟨2, ![A, B]⟩ : Shape).Reduces [1] ⟨1, ![A]⟩) (hφ : FKind.Formats FTy.f32)
    (hmax : (0xFF800000#32 : BitVec FTy.f32.bits) = FKind.maximumf.neutral .f32 hφ)
    (hadd : (0x00000000#32 : BitVec FTy.f32.bits) = FKind.add.neutral .f32 hφ)
    (hc : (⟨1, ![A]⟩ : Shape).ShapeCasts ⟨2, ![A, 1]⟩) (hb : (⟨2, ![A, 1]⟩ : Shape).Broadcasts ⟨2, ![A, B]⟩) :
    subf z (broadcastTo ⟨2, ![A, B]⟩
        (addf (shapeCast ⟨2, ![A, 1]⟩ (multiReduction .maximumf [1] ⟨1, ![A]⟩ z 0xFF800000#32 hred hφ hmax) hc)
          (log (shapeCast ⟨2, ![A, 1]⟩ (multiReduction .add [1] ⟨1, ![A]⟩
            (exp (subf z (broadcastTo ⟨2, ![A, B]⟩ (shapeCast ⟨2, ![A, 1]⟩ (multiReduction .maximumf [1] ⟨1, ![A]⟩ z 0xFF800000#32 hred hφ hmax) hc) hb)))
            0x00000000#32 hred hφ hadd) hc))) hb)
      = lsmRows z := by
  funext i
  obtain ⟨p, q, rfl⟩ : ∃ (p : Fin A) (q : Fin B), i = ix2 p q := ⟨i 0, i 1, eq_ix2 i⟩
  have hm : ∀ c : Fin B, broadcastTo ⟨2, ![A, B]⟩ (shapeCast ⟨2, ![A, 1]⟩ (multiReduction .maximumf [1] ⟨1, ![A]⟩ z 0xFF800000#32 hred hφ hmax) hc) hb (ix2 p c)
      = top (row z p) :=
    fun c => Cert.Lib.rowMax_keepdims_apply z 0xFF800000#32 hred hφ hmax hc hb p c
  show z (ix2 p q) - broadcastTo ⟨2, ![A, B]⟩ _ hb (ix2 p q) = _
  rw [Cert.Lib.broadcastTo_a1_ab_apply _ hb p q]
  show z (ix2 p q) - (shapeCast ⟨2, ![A, 1]⟩ _ hc (ix2 p (0 : Fin 1)) + Ideal.log (shapeCast ⟨2, ![A, 1]⟩ _ hc (ix2 p (0 : Fin 1)))) = _
  rw [Cert.Lib.shapeCast_a_a1_apply _ hc p 0, Cert.Lib.shapeCast_a_a1_apply _ hc p 0,
    Cert.Lib.rowMax_apply z 0xFF800000#32 hred hφ hmax p, Cert.Lib.rowSum_apply _ 0x00000000#32 hred hφ hadd p]
  rw [lsmRows_ix2]
  unfold lsmAdd
  refine congrArg (fun s => z (ix2 p q) - (top (row z p) + Ideal.log s)) (Finset.sum_congr rfl fun k _ => ?_)
  show Ideal.exp (z (ix2 p k) - broadcastTo ⟨2, ![A, B]⟩ _ hb (ix2 p k)) = _
  rw [hm k]
  rfl

end Cert.Gcn

namespace Cert.KernelIdeal.Tiles

open Cert.KernelIdeal Cert.KernelIdeal.Gen Cert.Gcn Idealize.ShloMosaic Idealize.ShloMosaic.ValueIdx

/-- Kernel one's tile: the product of the tile's rows of x with w1. -/
theorem tile0 (x0 : Vec Ideal S2000x128 .f32) (x1 : Vec Ideal S128x128 .f32) :
    k0_pay1 (F := Ideal) x0 x1 = mm x0 x1 := by
  unfold k0_pay1
  exact matmul_eq_mm dot_S2000x128_S128x128_S2000x128_1_0_0_1_n_n _ rfl x0 x1

/-- Kernel two's tile: max (a · g + b, 0) · w2 of the tile's rows of adj. -/
theorem tile1 (x0 : Vec Ideal S400x10000 .f32) (x1 : Vec Ideal S10000x128 .f32) (x2 : Vec Ideal S1x128 .f32) (x3 : Vec Ideal S128x64 .f32) :
    k1_pay1 (F := Ideal) x0 x1 x2 x3 = mm (relu (addBias (mm x0 x1) (fun j => x2 (ix2 (0 : Fin 1) j)))) x3 := by
  unfold k1_pay1
  dsimp only
  rw [shapeCast_self, matmul_eq_mm dot_S400x10000_S10000x128_S400x128_1_0_0_1_n_n _ rfl x0 x1,
    addRow_eq_addBias, max_zero_eq_relu, matmul_eq_mm dot_S400x128_S128x64_S400x64_1_0_0_1_n_n _ rfl]

/-- Kernel three's tile: the log-softmax of the rows of a · p + b for the tile's rows of adj. -/
theorem tile2 (x0 : Vec Ideal S400x10000 .f32) (x1 : Vec Ideal S10000x64 .f32) (x2 : Vec Ideal S1x64 .f32) :
    k2_pay1 (F := Ideal) x0 x1 x2 = lsmRows (addBias (mm x0 x1) (fun j => x2 (ix2 (0 : Fin 1) j))) := by
  unfold k2_pay1
  dsimp only
  rw [shapeCast_self, matmul_eq_mm dot_S400x10000_S10000x64_S400x64_1_0_0_1_n_n _ rfl x0 x1,
    addRow_eq_addBias]
  exact lsm_tile _ _ _ _ _ _ _

end Cert.KernelIdeal.Tiles

end
-- ==== Proof.Region0.lean ====
/-
  Kernel one over its grid: from blocks to the array.

  The grid has 5 points; point t reads rows 2000·t … 2000·t + 1999 of x (all 128 columns) and all of w1, and writes rows
  2000·t … 2000·t + 1999 of its result (all 128 columns).  A tile's entry depends on its own row of x only, so what point
  t writes back is block t of ONE array: x · w1.  The 5 blocks tile the 10000 rows, so after the region the result
  array is that array.
-/
import proofs.«149536_g52450140619141_cont_8to1_c_1019_3_alg».proof.Proof.Gen.KernelIdeal.Frame
import Idealize.ShloMosaic.Lib.Pipeline.Value
import proofs.«149536_g52450140619141_cont_8to1_c_1019_3_alg».proof.Proof.Tiles

noncomputable section

namespace Cert.KernelIdeal.Blocks0

open Cert.KernelIdeal Cert.KernelIdeal.Gen Cert.Gcn Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: x's and the result's block index is (t, 0), w1's (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 5 := by have := t.isLt; have h : cfg0.N = 5 := N_0; omega

/-- The array the region leaves: x · w1. -/
def G (x : S10000x128.Idx → Elt Ideal .f32) (w1 : S128x128.Idx → Elt Ideal .f32) : S10000x128.Idx → Elt Ideal .f32 :=
  mm x w1

/-- Row p of point t's block of x is row 2000·t + p of x. -/
theorem blk_x (c : Dev nD) (t : Fin cfg0.N) (p : Fin 2000) (k : Fin 128) (hp : t.val * 2000 + p.val < 10000) :
    iblk0 V c 0 t (ix2 p k) = V c main_arg0 (ix2 (⟨t.val * 2000 + p.val, hp⟩ : Fin 10000) k) := by
  obtain ⟨e0, e1, -⟩ := idx_facts t
  show V c main_arg0 (((cfg0.win 0).blk t).view.emb (ix2 p k)) = _
  refine congrArg (V c main_arg0) (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

/-- The block of w1 at every point is all of w1. -/
theorem blk_w (c : Dev nD) (t : Fin cfg0.N) : iblk0 V c 1 t = V c main_arg2 := by
  obtain ⟨-, -, e2, e3, -⟩ := idx_facts t
  funext z
  show V c main_arg2 (((cfg0.win 1).blk t).view.emb z) = _
  refine congrArg (V c main_arg2) (funext fun a => Fin.ext ?_)
  match a with
  | ⟨0, _⟩ => show win0_1.index t (0 : Fin 2) * 128 + 1 * (z 0).val = (z 0).val; omega
  | ⟨1, _⟩ => show win0_1.index t (1 : Fin 2) * 128 + 1 * (z 1).val = (z 1).val; omega

/-- WHAT POINT t WRITES BACK is block t of `G` of the arrays as the region finds them. -/
theorem flushed_eq (c : Dev nD) (t : Fin cfg0.N) :
    (dat0 V c).flushed 2 t = ((cfg0.win 2).blk t).view.read (Elt Ideal) (G (V c main_arg0) (V c main_arg2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  rw [Tiles.tile0, blk_w]
  obtain ⟨-, -, -, -, e4, e5⟩ := idx_facts t
  have ht := t_lt t
  funext y
  obtain ⟨p, q, rfl⟩ : ∃ (p : Fin 2000) (q : Fin 128), y = ix2 p q := ⟨y 0, y 1, eq_ix2 y⟩
  have hp : t.val * 2000 + p.val < 10000 := by have := p.isLt; omega
  have hemb : ((cfg0.win 2).blk t).view.emb (ix2 p q) = ix2 (⟨t.val * 2000 + p.val, hp⟩ : Fin 10000) q := by
    funext a; apply Fin.ext
    match a with
    | ⟨0, _⟩ => show win0_2.index t (0 : Fin 2) * 2000 + 1 * p.val = t.val * 2000 + p.val; omega
    | ⟨1, _⟩ => show win0_2.index t (1 : Fin 2) * 128 + 1 * q.val = q.val; omega
  show mm (iblk0 V c 0 t) (V c main_arg2) (ix2 p q) = G (V c main_arg0) (V c main_arg2) (((cfg0.win 2).blk t).view.emb (ix2 p q))
  rw [hemb]
  unfold G
  rw [mm_ix2, mm_ix2]
  exact Finset.sum_congr rfl fun k _ => by rw [blk_x V c t p k hp]

/-- An index of the array is in point t's block iff each coordinate is in the block's range on its axis. -/
theorem mem_blk (t : Fin cfg0.N) (i : S10000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_call0_v2).slice (win0_2.rect t)).set ↔ _
  rw [View.set_slice_whole, Rect.mem_set_unit]
  exact Iff.rfl

/-- Every index of the result array is in some point's block: row r is in block r / 2000. -/
theorem cover (i : S10000x128.Idx) : ∃ t : Fin cfg0.N, (cfg0.win 2).flush t = true ∧ i ∈ ((cfg0.win 2).blk t).view.set := by
  have hi0 : (i 0).val < 10000 := (i 0).isLt
  have hi1 : (i 1).val < 128 := (i 1).isLt
  have hN : cfg0.N = 5 := N_0
  let t : Fin cfg0.N := ⟨(i 0).val / 2000, by omega⟩
  obtain ⟨-, -, -, -, e4, e5⟩ := idx_facts t
  have htv : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- THE ARRAY after the region: `G` of the arrays as the region finds them. -/
theorem final (c : Dev nD) : (dat0 V c).arrAt 2 cfg0.N = G (V c main_arg0) (V c main_arg2) :=
  (dat0 V c).arrAt_eq_of_cover 2 _ (fun t _ => flushed_eq V c t) cover

end Cert.KernelIdeal.Blocks0

end
-- ==== Proof.Region1.lean ====
/-
  Kernel two over its grid: from blocks to the array.

  The grid has 25 points; point t reads rows 400·t … 400·t + 399 of adj (all 10000 columns), all of g, of the bias row and
  of w2, and writes rows 400·t … 400·t + 399 of its result (all 64 columns).  A tile's entry depends on its own row of adj
  only, so what point t writes back is block t of ONE array: max (adj · g + b, 0) · w2.  The 25 blocks tile the 10000
  rows, so after the region the result array is that array.
-/
import proofs.«149536_g52450140619141_cont_8to1_c_1019_3_alg».proof.Proof.Gen.KernelIdeal.Frame
import Idealize.ShloMosaic.Lib.Pipeline.Value
import proofs.«149536_g52450140619141_cont_8to1_c_1019_3_alg».proof.Proof.Tiles

noncomputable section

namespace Cert.KernelIdeal.Blocks1

open Cert.KernelIdeal Cert.KernelIdeal.Gen Cert.Gcn Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: adj's and the result's block index is (t, 0), the other windows' (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem t_lt (t : Fin cfg1.N) : t.val < 25 := by have := t.isLt; have h : cfg1.N = 25 := N_1; omega

/-- The array the region leaves: max (adj · g + b, 0) · w2. -/
def G (adj : S10000x10000.Idx → Elt Ideal .f32) (g : S10000x128.Idx → Elt Ideal .f32) (b : S1x128.Idx → Elt Ideal .f32)
    (w2 : S128x64.Idx → Elt Ideal .f32) : S10000x64.Idx → Elt Ideal .f32 :=
  mm (relu (addBias (mm adj g) (fun j => b (ix2 (0 : Fin 1) j)))) w2

/-- Row p of point t's block of adj is row 400·t + p of adj. -/
theorem blk_adj (c : Dev nD) (t : Fin cfg1.N) (p : Fin 400) (k : Fin 10000) (hp : t.val * 400 + p.val < 10000) :
    iblk1 V c 0 t (ix2 p k) = V c main_arg1 (ix2 (⟨t.val * 400 + p.val, hp⟩ : Fin 10000) k) := by
  obtain ⟨e0, e1, -⟩ := idx_facts t
  show V c main_arg1 (((cfg1.win 0).blk t).view.emb (ix2 p k)) = _
  refine congrArg (V c main_arg1) (funext fun a => Fin.ext ?_)
  match a with
  | ⟨0, _⟩ => show win1_0.index t (0 : Fin 2) * 400 + 1 * p.val = t.val * 400 + p.val; omega
  | ⟨1, _⟩ => show win1_0.index t (1 : Fin 2) * 10000 + 1 * k.val = k.val; omega

/-- The block of g at every point is all of g. -/
theorem blk_g (c : Dev nD) (t : Fin cfg1.N) : iblk1 V c 1 t = V c main_call0_v2 := by
  obtain ⟨-, -, e2, e3, -⟩ := idx_facts t
  funext z
  show V c main_call0_v2 (((cfg1.win 1).blk t).view.emb z) = _
  refine congrArg (V c main_call0_v2) (funext fun a => Fin.ext ?_)
  match a with
  | ⟨0, _⟩ => show win1_1.index t (0 : Fin 2) * 10000 + 1 * (z 0).val = (z 0).val; omega
  | ⟨1, _⟩ => show win1_1.index t (1 : Fin 2) * 128 + 1 * (z 1).val = (z 1).val; omega

/-- The block of the bias row at every point is the bias row. -/
theorem blk_b (c : Dev nD) (t : Fin cfg1.N) : iblk1 V c 2 t = V c main_call0_v0 := by
  obtain ⟨-, -, -, -, e4, e5, -⟩ := idx_facts t
  funext z
  show V c main_call0_v0 (((cfg1.win 2).blk t).view.emb z) = _
  refine congrArg (V c main_call0_v0) (funext fun a => Fin.ext ?_)
  match a with
  | ⟨0, _⟩ => show win1_2.index t (0 : Fin 2) * 1 + 1 * (z 0).val = (z 0).val; omega
  | ⟨1, _⟩ => show win1_2.index t (1 : Fin 2) * 128 + 1 * (z 1).val = (z 1).val; omega

/-- The block of w2 at every point is all of w2. -/
theorem blk_w (c : Dev nD) (t : Fin cfg1.N) : iblk1 V c 3 t = V c main_arg4 := by
  obtain ⟨-, -, -, -, -, -, e6, e7, -⟩ := idx_facts t
  funext z
  show V c main_arg4 (((cfg1.win 3).blk t).view.emb z) = _
  refine congrArg (V c main_arg4) (funext fun a => Fin.ext ?_)
  match a with
  | ⟨0, _⟩ => show win1_3.index t (0 : Fin 2) * 128 + 1 * (z 0).val = (z 0).val; omega
  | ⟨1, _⟩ => show win1_3.index t (1 : Fin 2) * 64 + 1 * (z 1).val = (z 1).val; omega

/-- WHAT POINT t WRITES BACK is block t of `G` of the arrays as the region finds them. -/
theorem flushed_eq (c : Dev nD) (t : Fin cfg1.N) :
    (dat1 V c).flushed 4 t = ((cfg1.win 4).blk t).view.read (Elt Ideal)
      (G (V c main_arg1) (V c main_call0_v2) (V c main_call0_v0) (V c main_arg4)) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x128) hz, View.ld_unit_zero (S := S1x128) hz,
    View.ld_unit_zero (S := S128x64) hz]
  rw [Tiles.tile1, blk_g, blk_b, blk_w]
  obtain ⟨-, -, -, -, -, -, -, -, e8, e9⟩ := idx_facts t
  have ht := t_lt t
  funext y
  obtain ⟨p, q, rfl⟩ : ∃ (p : Fin 400) (q : Fin 64), y = ix2 p q := ⟨y 0, y 1, eq_ix2 y⟩
  have hp : t.val * 400 + p.val < 10000 := by have := p.isLt; omega
  have hemb : ((cfg1.win 4).blk t).view.emb (ix2 p q) = ix2 (⟨t.val * 400 + p.val, hp⟩ : Fin 10000) q := by
    funext a; apply Fin.ext
    match a with
    | ⟨0, _⟩ => show win1_4.index t (0 : Fin 2) * 400 + 1 * p.val = t.val * 400 + p.val; omega
    | ⟨1, _⟩ => show win1_4.index t (1 : Fin 2) * 64 + 1 * q.val = q.val; omega
  show mm (relu (addBias (mm (iblk1 V c 0 t) (V c main_call0_v2)) (fun j => V c main_call0_v0 (ix2 (0 : Fin 1) j)))) (V c main_arg4) (ix2 p q)
    = G (V c main_arg1) (V c main_call0_v2) (V c main_call0_v0) (V c main_arg4) (((cfg1.win 4).blk t).view.emb (ix2 p q))
  rw [hemb]
  unfold G
  rw [mm_ix2, mm_ix2]
  refine Finset.sum_congr rfl fun j _ => congrArg (· * _) ?_
  show max (mm (iblk1 V c 0 t) (V c main_call0_v2) (ix2 p j) + _) _
    = max (mm (V c main_arg1) (V c main_call0_v2) (ix2 (⟨t.val * 400 + p.val, hp⟩ : Fin 10000) j) + _) _
  rw [mm_ix2, mm_ix2]
  exact congrArg (fun s => max (s + _) _) (Finset.sum_congr rfl fun k _ => by rw [blk_adj V c t p k hp])

/-- An index of the array is in point t's block iff each coordinate is in the block's range on its axis. -/
theorem mem_blk (t : Fin cfg1.N) (i : S10000x64.Idx) :
    i ∈ ((cfg1.win 4).blk t).view.set ↔ ∀ a : Fin 2, win1_4.index t a * S400x64.size a ≤ (i a).val ∧ (i a).val < win1_4.index t a * S400x64.size a + S400x64.size a := by
  show i ∈ ((View.whole main_call0_v3).slice (win1_4.rect t)).set ↔ _
  rw [View.set_slice_whole, Rect.mem_set_unit]
  exact Iff.rfl

/-- Every index of the result array is in some point's block: row r is in block r / 400. -/
theorem cover (i : S10000x64.Idx) : ∃ t : Fin cfg1.N, (cfg1.win 4).flush t = true ∧ i ∈ ((cfg1.win 4).blk t).view.set := by
  have hi0 : (i 0).val < 10000 := (i 0).isLt
  have hi1 : (i 1).val < 64 := (i 1).isLt
  have hN : cfg1.N = 25 := N_1
  let t : Fin cfg1.N := ⟨(i 0).val / 400, by omega⟩
  obtain ⟨-, -, -, -, -, -, -, -, e8, e9⟩ := idx_facts t
  have htv : t.val = (i 0).val / 400 := rfl
  refine ⟨t, flush1_4 t, ?_⟩
  rw [mem_blk]
  intro a
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 64 ≤ (i 1).val ∧ (i 1).val < win1_4.index t (1 : Fin 2) * 64 + 64; omega

/-- THE ARRAY after the region: `G` of the arrays as the region finds them. -/
theorem final (c : Dev nD) :
    (dat1 V c).arrAt 4 cfg1.N = G (V c main_arg1) (V c main_call0_v2) (V c main_call0_v0) (V c main_arg4) :=
  (dat1 V c).arrAt_eq_of_cover 4 _ (fun t _ => flushed_eq V c t) cover

end Cert.KernelIdeal.Blocks1

end
-- ==== Proof.Region2.lean ====
/-
  Kernel three over its grid: from blocks to the array.

  The grid has 25 points; point t reads rows 400·t … 400·t + 399 of adj (all 10000 columns), all of p and of the bias
  row, and writes rows 400·t … 400·t + 399 of the result (all 64 columns).  A tile's entry depends on its own row of adj
  only, so what point t writes back is block t of ONE array: the log-softmax stage of adj · p + b.  The 25 blocks tile the
  10000 rows, so after the region the result array is that array.
-/
import proofs.«149536_g52450140619141_cont_8to1_c_1019_3_alg».proof.Proof.Gen.KernelIdeal.Frame
import Idealize.ShloMosaic.Lib.Pipeline.Value
import proofs.«149536_g52450140619141_cont_8to1_c_1019_3_alg».proof.Proof.Tiles

noncomputable section

namespace Cert.KernelIdeal.Blocks2

open Cert.KernelIdeal Cert.KernelIdeal.Gen Cert.Gcn Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: adj's and the result's block index is (t, 0), the other windows' (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem t_lt (t : Fin cfg2.N) : t.val < 25 := by have := t.isLt; have h : cfg2.N = 25 := N_2; omega

/-- The array the region leaves: the log-softmax stage of adj · p + b. -/
def G (adj : S10000x10000.Idx → Elt Ideal .f32) (pp : S10000x64.Idx → Elt Ideal .f32) (b : S1x64.Idx → Elt Ideal .f32) :
    S10000x64.Idx → Elt Ideal .f32 :=
  lsmRows (addBias (mm adj pp) (fun j => b (ix2 (0 : Fin 1) j)))

/-- Row p of point t's block of adj is row 400·t + p of adj. -/
theorem blk_adj (c : Dev nD) (t : Fin cfg2.N) (p : Fin 400) (k : Fin 10000) (hp : t.val * 400 + p.val < 10000) :
    iblk2 V c 0 t (ix2 p k) = V c main_arg1 (ix2 (⟨t.val * 400 + p.val, hp⟩ : Fin 10000) k) := by
  obtain ⟨e0, e1, -⟩ := idx_facts t
  show V c main_arg1 (((cfg2.win 0).blk t).view.emb (ix2 p k)) = _
  refine congrArg (V c main_arg1) (funext fun a => Fin.ext ?_)
  match a with
  | ⟨0, _⟩ => show win2_0.index t (0 : Fin 2) * 400 + 1 * p.val = t.val * 400 + p.val; omega
  | ⟨1, _⟩ => show win2_0.index t (1 : Fin 2) * 10000 + 1 * k.val = k.val; omega

/-- The block of p at every point is all of p. -/
theorem blk_p (c : Dev nD) (t : Fin cfg2.N) : iblk2 V c 1 t = V c main_call0_v3 := by
  obtain ⟨-, -, e2, e3, -⟩ := idx_facts t
  funext z
  show V c main_call0_v3 (((cfg2.win 1).blk t).view.emb z) = _
  refine congrArg (V c main_call0_v3) (funext fun a => Fin.ext ?_)
  match a with
  | ⟨0, _⟩ => show win2_1.index t (0 : Fin 2) * 10000 + 1 * (z 0).val = (z 0).val; omega
  | ⟨1, _⟩ => show win2_1.index t (1 : Fin 2) * 64 + 1 * (z 1).val = (z 1).val; omega

/-- The block of the bias row at every point is the bias row. -/
theorem blk_b (c : Dev nD) (t : Fin cfg2.N) : iblk2 V c 2 t = V c main_call0_v1 := by
  obtain ⟨-, -, -, -, e4, e5, -⟩ := idx_facts t
  funext z
  show V c main_call0_v1 (((cfg2.win 2).blk t).view.emb z) = _
  refine congrArg (V c main_call0_v1) (funext fun a => Fin.ext ?_)
  match a with
  | ⟨0, _⟩ => show win2_2.index t (0 : Fin 2) * 1 + 1 * (z 0).val = (z 0).val; omega
  | ⟨1, _⟩ => show win2_2.index t (1 : Fin 2) * 64 + 1 * (z 1).val = (z 1).val; omega

/-- WHAT POINT t WRITES BACK is block t of `G` of the arrays as the region finds them. -/
theorem flushed_eq (c : Dev nD) (t : Fin cfg2.N) :
    (dat2 V c).flushed 3 t = ((cfg2.win 3).blk t).view.read (Elt Ideal) (G (V c main_arg1) (V c main_call0_v3) (V c main_call0_v1)) := by
  show (cfg2.win 3).cut (grid2.coords t) ((dat2 V c).after 3 t) = _
  rw [after2_3]
  unfold out2_3
  rw [View.canon_unit_zero hz]
  simp only [View.ld_unit_zero (S := S400x10000) hz, View.ld_unit_zero (S := S10000x64) hz, View.ld_unit_zero (S := S1x64) hz]
  rw [Tiles.tile2, blk_p, blk_b]
  obtain ⟨-, -, -, -, -, -, e6, e7⟩ := idx_facts t
  have ht := t_lt t
  funext y
  obtain ⟨p, q, rfl⟩ : ∃ (p : Fin 400) (q : Fin 64), y = ix2 p q := ⟨y 0, y 1, eq_ix2 y⟩
  have hp : t.val * 400 + p.val < 10000 := by have := p.isLt; omega
  have hemb : ((cfg2.win 3).blk t).view.emb (ix2 p q) = ix2 (⟨t.val * 400 + p.val, hp⟩ : Fin 10000) q := by
    funext a; apply Fin.ext
    match a with
    | ⟨0, _⟩ => show win2_3.index t (0 : Fin 2) * 400 + 1 * p.val = t.val * 400 + p.val; omega
    | ⟨1, _⟩ => show win2_3.index t (1 : Fin 2) * 64 + 1 * q.val = q.val; omega
  show lsmRows (addBias (mm (iblk2 V c 0 t) (V c main_call0_v3)) (fun j => V c main_call0_v1 (ix2 (0 : Fin 1) j))) (ix2 p q)
    = G (V c main_arg1) (V c main_call0_v3) (V c main_call0_v1) (((cfg2.win 3).blk t).view.emb (ix2 p q))
  rw [hemb]
  unfold G
  rw [lsmRows_ix2, lsmRows_ix2]
  refine congrArg (fun r => lsmAdd r q) (funext fun j => ?_)
  show mm (iblk2 V c 0 t) (V c main_call0_v3) (ix2 p j) + _ = mm (V c main_arg1) (V c main_call0_v3) (ix2 (⟨t.val * 400 + p.val, hp⟩ : Fin 10000) j) + _
  rw [mm_ix2, mm_ix2]
  exact congrArg (· + _) (Finset.sum_congr rfl fun k _ => by rw [blk_adj V c t p k hp])

/-- An index of the array is in point t's block iff each coordinate is in the block's range on its axis. -/
theorem mem_blk (t : Fin cfg2.N) (i : S10000x64.Idx) :
    i ∈ ((cfg2.win 3).blk t).view.set ↔ ∀ a : Fin 2, win2_3.index t a * S400x64.size a ≤ (i a).val ∧ (i a).val < win2_3.index t a * S400x64.size a + S400x64.size a := by
  show i ∈ ((View.whole main_v0).slice (win2_3.rect t)).set ↔ _
  rw [View.set_slice_whole, Rect.mem_set_unit]
  exact Iff.rfl

/-- Every index of the result array is in some point's block: row r is in block r / 400. -/
theorem cover (i : S10000x64.Idx) : ∃ t : Fin cfg2.N, (cfg2.win 3).flush t = true ∧ i ∈ ((cfg2.win 3).blk t).view.set := by
  have hi0 : (i 0).val < 10000 := (i 0).isLt
  have hi1 : (i 1).val < 64 := (i 1).isLt
  have hN : cfg2.N = 25 := N_2
  let t : Fin cfg2.N := ⟨(i 0).val / 400, by omega⟩
  obtain ⟨-, -, -, -, -, -, e6, e7⟩ := idx_facts t
  have htv : t.val = (i 0).val / 400 := rfl
  refine ⟨t, flush2_3 t, ?_⟩
  rw [mem_blk]
  intro a
  match a with
  | ⟨0, _⟩ => show win2_3.index t (0 : Fin 2) * 400 ≤ (i 0).val ∧ (i 0).val < win2_3.index t (0 : Fin 2) * 400 + 400; omega
  | ⟨1, _⟩ => show win2_3.index t (1 : Fin 2) * 64 ≤ (i 1).val ∧ (i 1).val < win2_3.index t (1 : Fin 2) * 64 + 64; omega

/-- THE ARRAY after the region: `G` of the arrays as the region finds them. -/
theorem final (c : Dev nD) :
    (dat2 V c).arrAt 3 cfg2.N = G (V c main_arg1) (V c main_call0_v3) (V c main_call0_v1) :=
  (dat2 V c).arrAt_eq_of_cover 3 _ (fun t _ => flushed_eq V c t) cover

end Cert.KernelIdeal.Blocks2

end
-- ==== Proof.KernelRun.lean ====
/-
  The kernel program's run, with its result read.

  @main is a stretch of two host operations (the two bias vectors recast as one-row matrices) and three kernel regions.
  Every weakly fair execution terminates with every unscoped buffer at the last boundary's contents; the result buffer is
  the third region's output array, which is that region's one array of its input arrays as it finds them: adj as launched,
  the second region's output array, and the recast second bias.  The second region's output is in turn its one array of
  adj, the first region's output array, the recast first bias and w2; the first region's is x · w1.  Composed, the result
  is the network of the six argument arrays.
-/
import proofs.«149536_g52450140619141_cont_8to1_c_1019_3_alg».proof.Proof.Gen.KernelIdeal.Frame
import proofs.«149536_g52450140619141_cont_8to1_c_1019_3_alg».proof.Proof.Region0
import proofs.«149536_g52450140619141_cont_8to1_c_1019_3_alg».proof.Proof.Region1
import proofs.«149536_g52450140619141_cont_8to1_c_1019_3_alg».proof.Proof.Region2
import Idealize.ShloMosaic.Lib.ValueLayout

set_option maxRecDepth 16384

noncomputable section

namespace Cert.KernelIdeal.Net

open Cert.KernelIdeal Cert.KernelIdeal.Gen Cert.Gcn
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Launch

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched: the launch over the four segments, the last thread state read against
    the final state at the result buffer too. -/
theorem run_boundary : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Launch

/-! ## The boundary contents, read back to the launch memory -/

variable (m : (ℓ : Loc nD τ sig) → Buf (Elt Ideal) ℓ) (ρ : Dev nD → PrngReg)

/-- The two host operations write neither x, adj, w1 nor w2, -/
theorem W1_x (c : Dev nD) : W1 m ρ c (Proc.devRef .tc main_arg0) = m ((c : Thread nD τ).loc main_arg0) := by
  show StableHlo.after hostOps0 (W0 m ρ c) (Proc.devRef .tc main_arg0) = _
  after_results <;> rfl
theorem W1_adj (c : Dev nD) : W1 m ρ c (Proc.devRef .tc main_arg1) = m ((c : Thread nD τ).loc main_arg1) := by
  show StableHlo.after hostOps0 (W0 m ρ c) (Proc.devRef .tc main_arg1) = _
  after_results <;> rfl
theorem W1_w1 (c : Dev nD) : W1 m ρ c (Proc.devRef .tc main_arg2) = m ((c : Thread nD τ).loc main_arg2) := by
  show StableHlo.after hostOps0 (W0 m ρ c) (Proc.devRef .tc main_arg2) = _
  after_results <;> rfl
theorem W1_w2 (c : Dev nD) : W1 m ρ c (Proc.devRef .tc main_arg4) = m ((c : Thread nD τ).loc main_arg4) := by
  show StableHlo.after hostOps0 (W0 m ρ c) (Proc.devRef .tc main_arg4) = _
  after_results <;> rfl

/-- and leave the two bias vectors recast as one-row matrices. -/
theorem W1_b1 (c : Dev nD) : W1 m ρ c (Proc.devRef .tc main_call0_v0)
    = shapeCast S1x128 (m ((c : Thread nD τ).loc main_arg3)) shapeCasts_S128_S1x128 := by
  show StableHlo.after hostOps0 (W0 m ρ c) (Proc.devRef .tc main_call0_v0) = _
  after_results <;> rfl
theorem W1_b2 (c : Dev nD) : W1 m ρ c (Proc.devRef .tc main_call0_v1)
    = shapeCast S1x64 (m ((c : Thread nD τ).loc main_arg5)) shapeCasts_S64_S1x64 := by
  show StableHlo.after hostOps0 (W0 m ρ c) (Proc.devRef .tc main_call0_v1) = _
  after_results <;> rfl

/-- The first region finds x and w1 as launched and leaves x · w1. -/
theorem g_eq (c : Dev nD) : W2 m ρ c (Proc.devRef .tc main_call0_v2)
    = mm (m ((c : Thread nD τ).loc main_arg0)) (m ((c : Thread nD τ).loc main_arg2)) := by
  refine (W2_arr m ρ c 2).trans ((Blocks0.final (V1 m ρ) c).trans ?_)
  rw [show V1 m ρ c main_arg0 = _ from W1_x m ρ c, show V1 m ρ c main_arg2 = _ from W1_w1 m ρ c]
  rfl

/-- The second region finds adj and w2 as launched, the first region's array and the recast first bias. -/
theorem V2_adj (c : Dev nD) : V2 m ρ c main_arg1 = m ((c : Thread nD τ).loc main_arg1) :=
  (W2_of_ne m ρ c main_arg1 (by decide)).trans (W1_adj m ρ c)
theorem V2_w2 (c : Dev nD) : V2 m ρ c main_arg4 = m ((c : Thread nD τ).loc main_arg4) :=
  (W2_of_ne m ρ c main_arg4 (by decide)).trans (W1_w2 m ρ c)
theorem V2_b1 (c : Dev nD) : V2 m ρ c main_call0_v0 = shapeCast S1x128 (m ((c : Thread nD τ).loc main_arg3)) shapeCasts_S128_S1x128 :=
  (W2_of_ne m ρ c main_call0_v0 (by decide)).trans (W1_b1 m ρ c)

theorem p_eq (c : Dev nD) : W3 m ρ c (Proc.devRef .tc main_call0_v3)
    = Blocks1.G (m ((c : Thread nD τ).loc main_arg1)) (mm (m ((c : Thread nD τ).loc main_arg0)) (m ((c : Thread nD τ).loc main_arg2)))
        (shapeCast S1x128 (m ((c : Thread nD τ).loc main_arg3)) shapeCasts_S128_S1x128) (m ((c : Thread nD τ).loc main_arg4)) := by
  refine (W3_arr m ρ c 4).trans ((Blocks1.final (V2 m ρ) c).trans ?_)
  rw [V2_adj, show V2 m ρ c main_call0_v2 = _ from g_eq m ρ c, V2_b1, V2_w2]

/-- The third region finds adj as launched, the second region's array and the recast second bias. -/
theorem V3_adj (c : Dev nD) : V3 m ρ c main_arg1 = m ((c : Thread nD τ).loc main_arg1) :=
  ((W3_arr m ρ c 0).trans (((dat1 (V2 m ρ) c).arrAt_in 0 rfl _).trans (A_eq1 (V2 m ρ) c 0))).trans (V2_adj m ρ c)
theorem V3_b2 (c : Dev nD) : V3 m ρ c main_call0_v1 = shapeCast S1x64 (m ((c : Thread nD τ).loc main_arg5)) shapeCasts_S64_S1x64 :=
  (W3_of_ne m ρ c main_call0_v1 (by decide)).trans ((W2_of_ne m ρ c main_call0_v1 (by decide)).trans (W1_b2 m ρ c))

/-- The result buffer at the last boundary: the network of the six argument arrays. -/
theorem result_eq (c : Dev nD) : W4 m ρ c (Proc.devRef .tc main_v0)
    = net (m ((c : Thread nD τ).loc main_arg0)) (m ((c : Thread nD τ).loc main_arg1)) (m ((c : Thread nD τ).loc main_arg2))
        (fun j => m ((c : Thread nD τ).loc main_arg3) (ix1 j)) (m ((c : Thread nD τ).loc main_arg4))
        (fun j => m ((c : Thread nD τ).loc main_arg5) (ix1 j)) := by
  refine (W4_arr m ρ c 3).trans ((Blocks2.final (V3 m ρ) c).trans ?_)
  rw [V3_adj, show V3 m ρ c main_call0_v3 = _ from p_eq m ρ c, V3_b2]
  unfold Blocks2.G Blocks1.G net
  have h1 : (fun j : Fin 128 => shapeCast S1x128 (m ((c : Thread nD τ).loc main_arg3)) shapeCasts_S128_S1x128 (ix2 (0 : Fin 1) j))
      = fun j => m ((c : Thread nD τ).loc main_arg3) (ix1 j) :=
    funext fun j => shapeCast_a_1a_apply _ shapeCasts_S128_S1x128 0 j
  have h2 : (fun j : Fin 64 => shapeCast S1x64 (m ((c : Thread nD τ).loc main_arg5)) shapeCasts_S64_S1x64 (ix2 (0 : Fin 1) j))
      = fun j => m ((c : Thread nD τ).loc main_arg5) (ix1 j) :=
    funext fun j => shapeCast_a_1a_apply _ shapeCasts_S64_S1x64 0 j
  rw [h1, h2]

/-- Every weakly fair execution of the kernel program terminates with the result buffer at the network of the argument
    arrays, the arguments unchanged. -/
theorem run : θ_run defs (onTc (τ := τ) (main (F := Ideal))) ⟨m, fun _ => 0, ρ⟩ (fun r => ∀ c : Dev nD,
      r.2.mem ((c.tc : Thread nD τ).loc main_v0)
        = net (m ((c : Thread nD τ).loc main_arg0)) (m ((c : Thread nD τ).loc main_arg1)) (m ((c : Thread nD τ).loc main_arg2))
            (fun j => m ((c : Thread nD τ).loc main_arg3) (ix1 j)) (m ((c : Thread nD τ).loc main_arg4))
            (fun j => m ((c : Thread nD τ).loc main_arg5) (ix1 j))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_boundary m ρ)

end Cert.KernelIdeal.Net

end
-- ==== Proof.LibAfterAppend.lean ====
/-
  The buffer contents after two stretches of host operations run one after the other are the contents after the
  second stretch, taken from the contents after the first.
-/
import Idealize.ShloMosaic.Lib.StableHlo.Run

namespace Cert.Lib

open Idealize.ShloMosaic Idealize.ShloMosaic.StableHlo

variable {τ : Topo} {sig : RefSig} {Val : EltTy → Type}

/-- The fold of a concatenation of operation lists is the fold of the second list from the fold of the first. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib
-- ==== Proof.LibTypedRefs.lean ====
/-
  A typed reference's two transports cancel.

  A tensor value of a module-local function is held in a buffer whose type equals the value's; contents move between the
  two types by transport along that equation, there and back.  Back after there is the identity.
-/
import Idealize.ShloMosaic.Lib.StableHlo

namespace Cert.Lib

open Idealize.ShloMosaic Idealize.ShloMosaic.StableHlo

variable {sig : RefSig} {T : BufTy} {Val : EltTy → Type}

/-- Contents moved to the buffer's type and back are the contents. -/
theorem ofBuf_toBuf (x : TRef sig T) (v : T.Contents Val) : x.ofBuf (x.toBuf v) = v := by
  obtain ⟨r, h, h2, h3⟩ := x
  subst h
  rfl

end Cert.Lib
-- ==== Proof.RefRun.lean ====
/-
  The reference program's run, read back: its @main is a straight line of 28 host operations — two matrix products, a
  bias, the maximum with zero, two more products, a bias, then the fifteen operations of the row-wise log-softmax — and
  every weakly fair execution of it terminates with the result buffer at those operations' composed value of the
  argument arrays, the arguments unchanged.  The composed value is read in two stretches: the thirteen operations up to
  the logits, then the log-softmax as one function `lsmHost` of the logits.
-/
import proofs.«149536_g52450140619141_cont_8to1_c_1019_3_alg».proof.Proof.Gen.ReferenceIdeal
import Idealize.ShloMosaic.Lib.StableHlo.Run
import proofs.«149536_g52450140619141_cont_8to1_c_1019_3_alg».proof.Proof.LibAfterAppend
import proofs.«149536_g52450140619141_cont_8to1_c_1019_3_alg».proof.Proof.LibTypedRefs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The thirteen operations up to the logits. -/
abbrev opsLogits : List (HloOp τ sig (Elt F)) :=
  [ binary main_arg0 main_arg2 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v0 main_v1 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S10000x128 ![0, 1] bcast_S1x128_S10000x128_0_1 : (⟨S1x128, .f32⟩ : BufTy).Contents (Elt F) → (⟨S10000x128, .f32⟩ : BufTy).Contents (Elt F)),
    binary main_v1 main_v3 main_v4 (addf : (⟨S10000x128, .f32⟩ : BufTy).Contents (Elt F) → (⟨S10000x128, .f32⟩ : BufTy).Contents (Elt F) → (⟨S10000x128, .f32⟩ : BufTy).Contents (Elt F)),
    nullary main_cst (constant S_ .f32 0x00000000#32),
    unary main_cst main_v5 (broadcastInDim S10000x128 ![] bcast_S_S10000x128 : (⟨S_, .f32⟩ : BufTy).Contents (Elt F) → (⟨S10000x128, .f32⟩ : BufTy).Contents (Elt F)),
    binary main_v4 main_v5 main_v6 (maximumf : (⟨S10000x128, .f32⟩ : BufTy).Contents (Elt F) → (⟨S10000x128, .f32⟩ : BufTy).Contents (Elt F) → (⟨S10000x128, .f32⟩ : BufTy).Contents (Elt F)),
    binary main_v6 main_arg4 main_v7 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    binary main_arg1 main_v7 main_v8 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg5 main_v9 (broadcastInDim S1x64 ![1] bcast_S64_S1x64_1 : (⟨S64, .f32⟩ : BufTy).Contents (Elt F) → (⟨S1x64, .f32⟩ : BufTy).Contents (Elt F)),
    unary main_v9 main_v10 (broadcastInDim S10000x64 ![0, 1] bcast_S1x64_S10000x64_0_1 : (⟨S1x64, .f32⟩ : BufTy).Contents (Elt F) → (⟨S10000x64, .f32⟩ : BufTy).Contents (Elt F)),
    binary main_v8 main_v10 main_v11 (addf : (⟨S10000x64, .f32⟩ : BufTy).Contents (Elt F) → (⟨S10000x64, .f32⟩ : BufTy).Contents (Elt F) → (⟨S10000x64, .f32⟩ : BufTy).Contents (Elt F)) ]

/-- The fifteen operations of the row-wise log-softmax, from the logits' buffer to the result's. -/
abbrev opsLsm : List (HloOp τ sig (Elt F)) :=
  [ TRef.nullary (TRef.of (T := ⟨S_, .f32⟩) main_call0_cst) (constant S_ .f32 0xFF800000#32),
    TRef.binary (TRef.of (T := ⟨S10000x64, .f32⟩) main_v11) (TRef.of (T := ⟨S_, .f32⟩) main_call0_cst) (TRef.of (T := ⟨S10000, .f32⟩) main_call0_v0) (fun x v => Host.reduce FloatOps.maximumf x v reducesTo_S10000x64_S10000_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S10000, .f32⟩) main_call0_v1) (broadcastInDim S10000 ![] bcast_S_S10000),
    TRef.binary (TRef.of (T := ⟨S10000, .f32⟩) main_call0_v1) (TRef.of (T := ⟨S10000, .f32⟩) main_call0_v0) (TRef.of (T := ⟨S10000, .f32⟩) main_call0_v2) maximumf,
    TRef.unary (TRef.of (T := ⟨S10000, .f32⟩) main_call0_v2) (TRef.of (T := ⟨S10000x1, .f32⟩) main_call0_v3) (broadcastInDim S10000x1 ![0] bcast_S10000_S10000x1_0),
    TRef.unary (TRef.of (T := ⟨S10000x1, .f32⟩) main_call0_v3) (TRef.of (T := ⟨S10000x64, .f32⟩) main_call0_v4) (broadcastInDim S10000x64 ![0, 1] bcast_S10000x1_S10000x64_0_1),
    TRef.binary (TRef.of (T := ⟨S10000x64, .f32⟩) main_v11) (TRef.of (T := ⟨S10000x64, .f32⟩) main_call0_v4) (TRef.of (T := ⟨S10000x64, .f32⟩) main_call0_v5) subf,
    TRef.unary (TRef.of (T := ⟨S10000x64, .f32⟩) main_call0_v5) (TRef.of (T := ⟨S10000x64, .f32⟩) main_call0_v6) Host.exp,
    TRef.nullary (TRef.of (T := ⟨S_, .f32⟩) main_call0_cst_1) (constant S_ .f32 0x00000000#32),
    TRef.binary (TRef.of (T := ⟨S10000x64, .f32⟩) main_call0_v6) (TRef.of (T := ⟨S_, .f32⟩) main_call0_cst_1) (TRef.of (T := ⟨S10000, .f32⟩) main_call0_v7) (fun x v => Host.reduceAdd x v reducesTo_S10000x64_S10000_d1 h_S_),
    TRef.unary (TRef.of (T := ⟨S10000, .f32⟩) main_call0_v7) (TRef.of (T := ⟨S10000x1, .f32⟩) main_call0_v8) (broadcastInDim S10000x1 ![0] bcast_S10000_S10000x1_0),
    TRef.unary (TRef.of (T := ⟨S10000x1, .f32⟩) main_call0_v8) (TRef.of (T := ⟨S10000x1, .f32⟩) main_call0_v9) Host.log,
    TRef.unary (TRef.of (T := ⟨S10000x1, .f32⟩) main_call0_v9) (TRef.of (T := ⟨S10000x64, .f32⟩) main_call0_v10) (broadcastInDim S10000x64 ![0, 1] bcast_S10000x1_S10000x64_0_1),
    TRef.binary (TRef.of (T := ⟨S10000x64, .f32⟩) main_call0_v5) (TRef.of (T := ⟨S10000x64, .f32⟩) main_call0_v10) (TRef.of (T := ⟨S10000x64, .f32⟩) main_v12) subf ]

/-- @main's operations, in order. -/
abbrev ops : List (HloOp τ sig (Elt F)) := opsLogits ++ opsLsm

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The logits as the first thirteen operations compose them. -/
def logitsHost (x : FVec F S10000x128 .f32) (adj : FVec F S10000x10000 .f32) (w1 : FVec F S128x128 .f32) (b1 : FVec F S128 .f32)
    (w2 : FVec F S128x64 .f32) (b2 : FVec F S64 .f32) : FVec F S10000x64 .f32 :=
  addf (Host.dotGeneral dot_S10000x10000_S10000x64_S10000x64_1_0_0_1_n_n none adj
      (Host.dotGeneral dot_S10000x128_S128x64_S10000x64_1_0_0_1_n_n none
        (maximumf (addf (Host.dotGeneral dot_S10000x10000_S10000x128_S10000x128_1_0_0_1_n_n none adj
              (Host.dotGeneral dot_S10000x128_S128x128_S10000x128_1_0_0_1_n_n none x w1))
            (broadcastInDim S10000x128 ![0, 1] bcast_S1x128_S10000x128_0_1 (broadcastInDim S1x128 ![1] bcast_S128_S1x128_1 b1)))
          (broadcastInDim S10000x128 ![] bcast_S_S10000x128 (constant S_ .f32 0x00000000#32))) w2))
    (broadcastInDim S10000x64 ![0, 1] bcast_S1x64_S10000x64_0_1 (broadcastInDim S1x64 ![1] bcast_S64_S1x64_1 b2))

/-- The row maximum column of the log-softmax: the maximum of −∞ with the running maximum, as a column repeated along the row. -/
def shiftHost (z : FVec F S10000x64 .f32) : FVec F S10000x64 .f32 :=
  subf z (broadcastInDim S10000x64 ![0, 1] bcast_S10000x1_S10000x64_0_1 (broadcastInDim S10000x1 ![0] bcast_S10000_S10000x1_0
    (maximumf (broadcastInDim S10000 ![] bcast_S_S10000 (constant S_ .f32 0xFF800000#32))
      (Host.reduce FloatOps.maximumf z (constant S_ .f32 0xFF800000#32) reducesTo_S10000x64_S10000_d1 h_S_))))

/-- The log-softmax as its fifteen operations compose it. -/
def lsmHost (z : FVec F S10000x64 .f32) : FVec F S10000x64 .f32 :=
  subf (shiftHost z) (broadcastInDim S10000x64 ![0, 1] bcast_S10000x1_S10000x64_0_1 (Host.log (broadcastInDim S10000x1 ![0] bcast_S10000_S10000x1_0
    (Host.reduceAdd (Host.exp (shiftHost z)) (constant S_ .f32 0x00000000#32) reducesTo_S10000x64_S10000_d1 h_S_))))

/-- After the first stretch the logits' buffer holds `logitsHost` of the argument arrays. -/
theorem after_logits (V : Valuation τ sig (Elt F)) :
    after (opsLogits (F := F)) V (Proc.devRef .tc main_v11)
      = logitsHost (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  after_results
  rfl

/-- After the second stretch the result's buffer holds `lsmHost` of what the logits' buffer held. -/
theorem after_lsm (W : Valuation τ sig (Elt F)) :
    after (opsLsm (F := F)) W (Proc.devRef .tc main_v12) = lsmHost (W (Proc.devRef .tc main_v11)) := by
  after_results
  simp only [Cert.Lib.ofBuf_toBuf]
  rfl

/-- The result buffer after all of @main. -/
theorem after_result (V : Valuation τ sig (Elt F)) :
    after (ops (F := F)) V (Proc.devRef .tc main_v12)
      = lsmHost (logitsHost (V (Proc.devRef .tc main_arg0)) (V (Proc.devRef .tc main_arg1)) (V (Proc.devRef .tc main_arg2))
          (V (Proc.devRef .tc main_arg3)) (V (Proc.devRef .tc main_arg4)) (V (Proc.devRef .tc main_arg5))) := by
  rw [show (ops (F := F)) = opsLogits ++ opsLsm from rfl, Cert.Lib.after_append, after_lsm, after_logits]

/-! ## The arguments' buffers are written by no operation -/

theorem after_arg0 (V : Valuation τ sig (Elt F)) :
    after (ops (F := F)) V (Proc.devRef .tc main_arg0) = V (Proc.devRef .tc main_arg0) := by
  rw [show (ops (F := F)) = opsLogits ++ opsLsm from rfl, Cert.Lib.after_append]
  after_results <;> rfl
theorem after_arg1 (V : Valuation τ sig (Elt F)) :
    after (ops (F := F)) V (Proc.devRef .tc main_arg1) = V (Proc.devRef .tc main_arg1) := by
  rw [show (ops (F := F)) = opsLogits ++ opsLsm from rfl, Cert.Lib.after_append]
  after_results <;> rfl
theorem after_arg2 (V : Valuation τ sig (Elt F)) :
    after (ops (F := F)) V (Proc.devRef .tc main_arg2) = V (Proc.devRef .tc main_arg2) := by
  rw [show (ops (F := F)) = opsLogits ++ opsLsm from rfl, Cert.Lib.after_append]
  after_results <;> rfl
theorem after_arg3 (V : Valuation τ sig (Elt F)) :
    after (ops (F := F)) V (Proc.devRef .tc main_arg3) = V (Proc.devRef .tc main_arg3) := by
  rw [show (ops (F := F)) = opsLogits ++ opsLsm from rfl, Cert.Lib.after_append]
  after_results <;> rfl
theorem after_arg4 (V : Valuation τ sig (Elt F)) :
    after (ops (F := F)) V (Proc.devRef .tc main_arg4) = V (Proc.devRef .tc main_arg4) := by
  rw [show (ops (F := F)) = opsLogits ++ opsLsm from rfl, Cert.Lib.after_append]
  after_results <;> rfl
theorem after_arg5 (V : Valuation τ sig (Elt F)) :
    after (ops (F := F)) V (Proc.devRef .tc main_arg5) = V (Proc.devRef .tc main_arg5) := by
  rw [show (ops (F := F)) = opsLogits ++ opsLsm from rfl, Cert.Lib.after_append]
  after_results <;> rfl

/-- On every device, from any memory with zero counters: every weakly fair execution of @main terminates with the
    result buffer at the log-softmax of the logits of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12)
        = lsmHost (logitsHost (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v12).trans (after_result _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _)⟩)
    (run_seq scopedRefs_eq scopedSems_eq defs main (fun _ => ops) main_eq (fun _ => ops_sub) m ρ)

end Cert.ReferenceIdeal.RefRun

end
-- ==== Proof.LibHostReads.lean ====
/-
  The host's layout operations and row reductions read at one entry, and as whole arrays, at the extended reals.

  A vector repeated along the rows of a table reads, at (p, q), the vector at q; a scalar constant repeated over any
  shape reads the constant's value; a column (one value per row) repeated along the row reads, at (p, c), row p's value.
  A reduction along the last axis of a table with a maximum body, from a constant, is at row p the running maximum
  of the row's entries from that constant; the float sum from zero is the sum of the row's entries.
-/
import Idealize.ShloMosaic.Lib.Pipeline.Value
import Idealize.ShloMosaic.Lib.ValueIdx
import Idealize.ShloMosaic.PureOps.Ideal.Laws
import proofs.«149536_g52450140619141_cont_8to1_c_1019_3_alg».proof.Proof.LibKeepdims

noncomputable section

open scoped BigOperators

namespace Cert.Lib

open Idealize.ShloMosaic Idealize.ShloMosaic.ValueIdx

variable {A B n : ℕ} {α : Type}

/-- A vector of length B made a one-row matrix and repeated along A rows reads, at (p, q), the vector at q. -/
theorem bcast_vec_rows_apply (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) (p : Fin A) (q : Fin B) :
    broadcastInDim ⟨2, ![A, B]⟩ ![0, 1] h2 (broadcastInDim ⟨2, ![1, B]⟩ ![1] h1 v) (ix2 p q) = v (ix1 q) := by
  refine (broadcastInDim_apply ![0, 1] h2 _ (ix2 p q) (ix2 (0 : Fin 1) q) fun a => ?_).trans
    (broadcastInDim_apply ![1] h1 v (ix2 (0 : Fin 1) q) (ix1 q) fun a => ?_)
  · match a with
    | ⟨0, _⟩ => show (0 : ℕ) = if (1 : ℕ) = 1 then 0 else p.val; rw [if_pos rfl]
    | ⟨1, _⟩ =>
      show q.val = if B = 1 then 0 else q.val
      split
      · have := q.isLt; omega
      · rfl
  · match a with
    | ⟨0, _⟩ =>
      show q.val = if B = 1 then 0 else q.val
      split
      · have := q.isLt; omega
      · rfl

/-- A scalar constant repeated over a shape reads the constant's value everywhere. -/
theorem bcast_scalar_apply {s : Shape} (h : (⟨0, ![]⟩ : Shape).BroadcastsInDim s ![]) (w : BitVec 32) (i : s.Idx) :
    broadcastInDim s ![] h (constant (F := Ideal) ⟨0, ![]⟩ .f32 w) i = Ideal.ofBits .f32 w :=
  (broadcastInDim_apply ![] h _ i ix0 fun a => a.elim0).trans rfl

/-- A vector of length A made a column reads, at (p, 0), the vector at p. -/
theorem bcast_col_apply (v : (⟨1, ![A]⟩ : Shape).Idx → α) (h1 : (⟨1, ![A]⟩ : Shape).BroadcastsInDim ⟨2, ![A, 1]⟩ ![0])
    (p : Fin A) (u : Fin 1) : broadcastInDim ⟨2, ![A, 1]⟩ ![0] h1 v (ix2 p u) = v (ix1 p) := by
  refine broadcastInDim_apply ![0] h1 v (ix2 p u) (ix1 p) fun a => ?_
  match a with
  | ⟨0, _⟩ =>
    show p.val = if A = 1 then 0 else p.val
    split
    · have := p.isLt; omega
    · rfl

/-- A column repeated along the row reads, at (p, c), the column at (p, 0). -/
theorem bcast_col_rows_apply (w : (⟨2, ![A, 1]⟩ : Shape).Idx → α)
    (h2 : (⟨2, ![A, 1]⟩ : Shape).BroadcastsInDim ⟨2, ![A, n]⟩ ![0, 1]) (p : Fin A) (c : Fin n) :
    broadcastInDim ⟨2, ![A, n]⟩ ![0, 1] h2 w (ix2 p c) = w (ix2 p (0 : Fin 1)) := by
  refine broadcastInDim_apply ![0, 1] h2 w (ix2 p c) (ix2 p (0 : Fin 1)) fun a => ?_
  match a with
  | ⟨0, _⟩ =>
    show p.val = if A = 1 then 0 else p.val
    split
    · have := p.isLt; omega
    · rfl
  | ⟨1, _⟩ => show (0 : ℕ) = if (1 : ℕ) = 1 then 0 else c.val; rw [if_pos rfl]

/-- The host's reduction with a maximum body along the last axis, from a constant, at row p. -/
theorem host_rowMax_apply (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) (p : Fin A) :
    Host.reduce FloatOps.maximumf x (constant (⟨0, ![]⟩ : Shape) .f32 w) h' hu (ix1 p)
      = (Finset.univ : Finset (Fin n)).fold max (Ideal.ofBits .f32 w) (fun k => x (ix2 p k)) := by
  rw [Host.reduce_eq_fold_single FloatOps.maximumf x _ h' h hu]
  have hf : (x ∘ h.lift (ix1 p)) = fun k : Fin n => x (ix2 p k) := funext fun k => congrArg x (Cert.Lib.lift_row h p k)
  exact congrArg (fun f => Finset.fold max (Ideal.ofBits .f32 w) f (Finset.univ : Finset (Fin n))) hf

/-- The host's float sum along the last axis, from zero, at row p. -/
theorem host_rowSum_apply (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) (p : Fin A) :
    Host.reduceAdd x (constant (⟨0, ![]⟩ : Shape) .f32 0x00000000#32) h' hu (ix1 p) = ∑ k : Fin n, x (ix2 p k) := by
  show Ideal.hostReduceAdd h' x (Ideal.ofBits .f32 0x00000000#32) (ix1 p) = _
  rw [Ideal.hostReduceAdd_single h' h, Ideal.ofBits_zero_f32, zero_add]
  exact Finset.sum_congr rfl fun k _ => congrArg x (Cert.Lib.lift_row h p k)

/-! ## The same readings for whole arrays

  Each of the layout operations and reductions above as ONE function of the result index. -/

theorem bcast_vec_rows_eq (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) :
    broadcastInDim ⟨2, ![A, B]⟩ ![0, 1] h2 (broadcastInDim ⟨2, ![1, B]⟩ ![1] h1 v)
      = fun i => v (ix1 (⟨(i 1).val, idx2_lt1 i⟩ : Fin B)) := by
  funext i
  obtain ⟨p, q, rfl⟩ : ∃ (p : Fin A) (q : Fin B), i = ix2 p q := ⟨i 0, i 1, eq_ix2 i⟩
  exact bcast_vec_rows_apply v h1 h2 p q

theorem bcast_scalar_eq {s : Shape} (h : (⟨0, ![]⟩ : Shape).BroadcastsInDim s ![]) (w : BitVec 32) :
    broadcastInDim s ![] h (constant (F := Ideal) ⟨0, ![]⟩ .f32 w) = fun _ => Ideal.ofBits .f32 w :=
  funext fun i => bcast_scalar_apply h w i

theorem bcast_col_eq (v : (⟨1, ![A]⟩ : Shape).Idx → α) (h1 : (⟨1, ![A]⟩ : Shape).BroadcastsInDim ⟨2, ![A, 1]⟩ ![0]) :
    broadcastInDim ⟨2, ![A, 1]⟩ ![0] h1 v = fun i => v (ix1 (⟨(i 0).val, idx2_lt0 i⟩ : Fin A)) := by
  funext i
  obtain ⟨p, u, rfl⟩ : ∃ (p : Fin A) (u : Fin 1), i = ix2 p u := ⟨i 0, i 1, eq_ix2 i⟩
  exact bcast_col_apply v h1 p u

theorem bcast_col_rows_eq (w : (⟨2, ![A, 1]⟩ : Shape).Idx → α)
    (h2 : (⟨2, ![A, 1]⟩ : Shape).BroadcastsInDim ⟨2, ![A, n]⟩ ![0, 1]) :
    broadcastInDim ⟨2, ![A, n]⟩ ![0, 1] h2 w = fun i => w (ix2 (⟨(i 0).val, idx2_lt0 i⟩ : Fin A) (0 : Fin 1)) := by
  funext i
  obtain ⟨p, c, rfl⟩ : ∃ (p : Fin A) (c : Fin n), i = ix2 p c := ⟨i 0, i 1, eq_ix2 i⟩
  exact bcast_col_rows_apply w h2 p c

theorem host_rowMax_eq (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) :
    Host.reduce FloatOps.maximumf x (constant (⟨0, ![]⟩ : Shape) .f32 w) h' hu
      = fun j => (Finset.univ : Finset (Fin n)).fold max (Ideal.ofBits .f32 w) (fun k => x (ix2 (⟨(j 0).val, (j 0).isLt⟩ : Fin A) k)) := by
  funext j
  obtain ⟨p, rfl⟩ : ∃ p : Fin A, j = ix1 p := ⟨j 0, eq_ix1 j⟩
  exact host_rowMax_apply h x w h' hu p

theorem host_rowSum_eq (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) :
    Host.reduceAdd x (constant (⟨0, ![]⟩ : Shape) .f32 0x00000000#32) h' hu
      = fun j => ∑ k : Fin n, x (ix2 (⟨(j 0).val, (j 0).isLt⟩ : Fin A) k) := by
  funext j
  obtain ⟨p, rfl⟩ : ∃ p : Fin A, j = ix1 p := ⟨j 0, eq_ix1 j⟩
  exact host_rowSum_apply h x h' hu p

end Cert.Lib

end
-- ==== Proof.RefValue.lean ====
/-
  The reference's result as the network's stages.

  The host's products are the product stage, its bias vector repeated along the rows the bias stage, its maximum with the
  zero constant the activation stage; its log-softmax shifts each row by max (−∞, running maximum) first and subtracts
  the logarithm of the summed exponentials: the second spelling of the log-softmax, which on rows of real numbers is the
  first.
-/
import proofs.«149536_g52450140619141_cont_8to1_c_1019_3_alg».proof.Proof.Spec
import proofs.«149536_g52450140619141_cont_8to1_c_1019_3_alg».proof.Proof.RefRun
import proofs.«149536_g52450140619141_cont_8to1_c_1019_3_alg».proof.Proof.LibEntryReads
import proofs.«149536_g52450140619141_cont_8to1_c_1019_3_alg».proof.Proof.LibHostReads

noncomputable section

open scoped BigOperators

namespace Cert.Gcn

open Idealize.ShloMosaic Idealize.ShloMosaic.ValueIdx

variable {A K B : ℕ}

/-- The logits: the network before its log-softmax. -/
def logits {N F H C : ℕ} (x : FVec Ideal ⟨2, ![N, F]⟩ .f32) (adj : FVec Ideal ⟨2, ![N, N]⟩ .f32)
    (w1 : FVec Ideal ⟨2, ![F, H]⟩ .f32) (b1 : Fin H → EReal) (w2 : FVec Ideal ⟨2, ![H, C]⟩ .f32) (b2 : Fin C → EReal) :
    FVec Ideal ⟨2, ![N, C]⟩ .f32 :=
  addBias (mm adj (mm (relu (addBias (mm adj (mm x w1)) b1)) w2)) b2

theorem net_eq {N F H C : ℕ} (x : FVec Ideal ⟨2, ![N, F]⟩ .f32) (adj : FVec Ideal ⟨2, ![N, N]⟩ .f32)
    (w1 : FVec Ideal ⟨2, ![F, H]⟩ .f32) (b1 : Fin H → EReal) (w2 : FVec Ideal ⟨2, ![H, C]⟩ .f32) (b2 : Fin C → EReal) :
    net x adj w1 b1 w2 b2 = lsmRows (logits x adj w1 b1 w2 b2) := rfl

/-- Real inputs give real logits. -/
theorem logits_isR {N F H C : ℕ} (x : FVec Ideal ⟨2, ![N, F]⟩ .f32) (adj : FVec Ideal ⟨2, ![N, N]⟩ .f32)
    (w1 : FVec Ideal ⟨2, ![F, H]⟩ .f32) (b1 : Fin H → EReal) (w2 : FVec Ideal ⟨2, ![H, C]⟩ .f32) (b2 : Fin C → EReal)
    (hx : ∀ i, IsR (x i)) (hadj : ∀ i, IsR (adj i)) (hw1 : ∀ i, IsR (w1 i)) (hb1 : ∀ j, IsR (b1 j)) (hw2 : ∀ i, IsR (w2 i))
    (hb2 : ∀ j, IsR (b2 j)) (i : (⟨2, ![N, C]⟩ : Shape).Idx) : IsR (logits x adj w1 b1 w2 b2 i) :=
  addBias_isR _ _ (mm_isR _ _ hadj (mm_isR _ _ (relu_isR _ (addBias_isR _ _ (mm_isR _ _ hadj (mm_isR _ _ hx hw1)) hb1)) hw2)) hb2 i

/-- The log-softmax of every row in the second spelling, as one function of the result index. -/
def lsmRowsShift (z : FVec Ideal ⟨2, ![A, B]⟩ .f32) : FVec Ideal ⟨2, ![A, B]⟩ .f32 := fun i =>
  lsmShift (row z (⟨(i 0).val, idx2_lt0 i⟩ : Fin A)) (⟨(i 1).val, idx2_lt1 i⟩ : Fin B)

theorem lsmRowsShift_ix2 (z : FVec Ideal ⟨2, ![A, B]⟩ .f32) (p : Fin A) (q : Fin B) :
    lsmRowsShift z (ix2 p q) = lsmShift (row z p) q := rfl

/-- On an array of real numbers with nonempty rows the two spellings are one array. -/
theorem lsmRowsShift_eq (hB : 0 < B) (z : FVec Ideal ⟨2, ![A, B]⟩ .f32) (hz : ∀ i, IsR (z i)) : lsmRowsShift z = lsmRows z :=
  funext fun i => lsmShift_eq_lsmAdd hB _ (fun k => hz _) _

/-! ## The host's spellings of the stages -/

theorem dot_eq_mm (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ .f32) (r : FVec Ideal ⟨2, ![K, B]⟩ .f32) : Host.dotGeneral D none l r = mm l r := by
  funext i
  obtain ⟨p, q, rfl⟩ : ∃ (p : Fin A) (q : Fin B), i = ix2 p q := ⟨i 0, i 1, eq_ix2 i⟩
  exact Cert.Lib.dotGeneral_plain_apply D wf hD l r p q

theorem hostBias_eq (z : FVec Ideal ⟨2, ![A, B]⟩ .f32) (b : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![A, B]⟩ ![0, 1]) :
    addf z (broadcastInDim ⟨2, ![A, B]⟩ ![0, 1] h2 (broadcastInDim ⟨2, ![1, B]⟩ ![1] h1 b)) = addBias z (fun j => b (ix1 j)) := by
  funext i
  obtain ⟨p, q, rfl⟩ : ∃ (p : Fin A) (q : Fin B), i = ix2 p q := ⟨i 0, i 1, eq_ix2 i⟩
  show z (ix2 p q) + broadcastInDim ⟨2, ![A, B]⟩ ![0, 1] h2 (broadcastInDim ⟨2, ![1, B]⟩ ![1] h1 b) (ix2 p q) = _
  rw [Cert.Lib.bcast_vec_rows_apply b h1 h2 p q]
  rfl

theorem hostRelu_eq (z : FVec Ideal ⟨2, ![A, B]⟩ .f32) (h : (⟨0, ![]⟩ : Shape).BroadcastsInDim ⟨2, ![A, B]⟩ ![]) :
    maximumf z (broadcastInDim ⟨2, ![A, B]⟩ ![] h (constant (F := Ideal) ⟨0, ![]⟩ .f32 0x00000000#32)) = relu z := by
  funext i
  show max (z i) (broadcastInDim ⟨2, ![A, B]⟩ ![] h (constant (F := Ideal) ⟨0, ![]⟩ .f32 0x00000000#32) i) = _
  rw [Cert.Lib.bcast_scalar_apply h _ i]
  rfl

end Cert.Gcn

namespace Cert.ReferenceIdeal.RefValue

open Cert.ReferenceIdeal Cert.ReferenceIdeal.Gen Cert.ReferenceIdeal.RefRun Cert.Gcn Idealize.ShloMosaic Idealize.ShloMosaic.ValueIdx

/-- The first thirteen operations compute the logits. -/
theorem logitsHost_eq (x : FVec Ideal S10000x128 .f32) (adj : FVec Ideal S10000x10000 .f32) (w1 : FVec Ideal S128x128 .f32)
    (b1 : FVec Ideal S128 .f32) (w2 : FVec Ideal S128x64 .f32) (b2 : FVec Ideal S64 .f32) :
    logitsHost (F := Ideal) x adj w1 b1 w2 b2 = logits x adj w1 (fun j => b1 (ix1 j)) w2 (fun j => b2 (ix1 j)) := by
  unfold logitsHost logits
  rw [dot_eq_mm dot_S10000x128_S128x128_S10000x128_1_0_0_1_n_n dot_S10000x128_S128x128_S10000x128_1_0_0_1_n_n.wf rfl x w1]
  rw [dot_eq_mm dot_S10000x10000_S10000x128_S10000x128_1_0_0_1_n_n dot_S10000x10000_S10000x128_S10000x128_1_0_0_1_n_n.wf rfl adj (mm x w1)]
  rw [hostBias_eq _ b1 bcast_S128_S1x128_1 bcast_S1x128_S10000x128_0_1]
  rw [hostRelu_eq _ bcast_S_S10000x128]
  rw [dot_eq_mm dot_S10000x128_S128x64_S10000x64_1_0_0_1_n_n dot_S10000x128_S128x64_S10000x64_1_0_0_1_n_n.wf rfl _ w2]
  rw [dot_eq_mm dot_S10000x10000_S10000x64_S10000x64_1_0_0_1_n_n dot_S10000x10000_S10000x64_S10000x64_1_0_0_1_n_n.wf rfl adj _]
  rw [hostBias_eq _ b2 bcast_S64_S1x64_1 bcast_S1x64_S10000x64_0_1]

theorem reduces_rows : (⟨2, ![10000, 64]⟩ : Shape).Reduces [1] ⟨1, ![10000]⟩ := by decide

/-- A row shifted by max (−∞, its running maximum). -/
theorem shiftHost_apply (z : FVec Ideal S10000x64 .f32) (p : Fin 10000) (q : Fin 64) :
    shiftHost (F := Ideal) z (ix2 p q) = z (ix2 p q) - max (Ideal.ofBits .f32 0xFF800000#32) (top (row z p)) := by
  unfold shiftHost
  rw [subf_apply, Cert.Lib.bcast_col_rows_apply _ bcast_S10000x1_S10000x64_0_1 p q, Cert.Lib.bcast_col_apply _ bcast_S10000_S10000x1_0 p 0,
    maximumf_apply, Cert.Lib.bcast_scalar_apply bcast_S_S10000 _ (ix1 p),
    Cert.Lib.host_rowMax_apply reduces_rows z _ reducesTo_S10000x64_S10000_d1 h_S_ p]
  rfl

/-- The fifteen operations of the log-softmax compute its second spelling. -/
theorem lsmHost_eq (z : FVec Ideal S10000x64 .f32) : lsmHost (F := Ideal) z = lsmRowsShift z := by
  funext i
  obtain ⟨p, q, rfl⟩ : ∃ (p : Fin 10000) (q : Fin 64), i = ix2 p q := ⟨i 0, i 1, eq_ix2 i⟩
  unfold lsmHost
  rw [subf_apply, Cert.Lib.bcast_col_rows_apply _ bcast_S10000x1_S10000x64_0_1 p q, Cert.Lib.host_log_apply,
    Cert.Lib.bcast_col_apply _ bcast_S10000_S10000x1_0 p 0,
    Cert.Lib.host_rowSum_apply reduces_rows _ reducesTo_S10000x64_S10000_d1 h_S_ p, shiftHost_apply, lsmRowsShift_ix2]
  unfold lsmShift
  refine congrArg (fun s => _ - Ideal.log s) (Finset.sum_congr rfl fun k _ => ?_)
  rw [Cert.Lib.host_exp_apply, shiftHost_apply]
  rfl

end Cert.ReferenceIdeal.RefValue

end
-- ==== Proof.LibFiniteEntries.lean ====
/-
  Finite entries: from an and-reduction of |v| < +∞ to real numbers.

  A precondition "every entry of v is finite" is printed as the and-reduction, over all axes, of the entrywise
  comparison |v| < +∞, where |v| is max(v, −v) and +∞ is the f32 word 0x7F800000, and is asserted to be 1. Then the
  comparison is 1 at every entry, and an extended real whose absolute value is below +∞ is a real number. Stated for
  an array of any shape, so that one conjunct of a conjunction of such tests is read with one application.
-/
import Idealize.ShloMosaic.PureOps.Ideal
import Idealize.ShloMosaic.Lib.ReduceAll
import Idealize.ShloMosaic.Lib.ValueIdx

noncomputable section

namespace Cert.Lib

open Idealize.ShloMosaic Idealize.ShloMosaic.ValueIdx

/-- The scalar shape has one index. -/
instance scalarIdx_subsingleton : Subsingleton (⟨0, ![]⟩ : Shape).Idx := ⟨fun _ _ => funext fun d => d.elim0⟩

/-- An extended real whose absolute value max(v, −v) is below +∞ is a real number. -/
theorem exists_real_of_abs_lt_top (v : EReal) (h : max v (-v) < ⊤) : ∃ r : ℝ, v = (r : EReal) := by
  induction v using EReal.rec with
  | bot => simp at h
  | coe r => exact ⟨r, rfl⟩
  | top => simp at h

/-- On one value: the ordered comparison |v| < +∞ (the word 0x7F800000) coming out 1 says that v is a real number. -/
theorem real_of_abs_olt_inf (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  unfold Ideal.cmp at h
  refine exists_real_of_abs_lt_top v ?_
  by_contra hn
  simp [hn] at h

/-- One "all entries finite" test: if the and-reduction over all axes of |v| < +∞ (the bound a scalar constant repeated
    over the shape, the reduction started from the constant 1) is 1, every entry of v is a real number. -/
theorem real_of_all_finite {s : Shape} {axes : List (Fin s.rank)} (v : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi (cmpf .olt (Host.absf v) (broadcastInDim s ![] hb (constant (F := Ideal) ⟨0, ![]⟩ .f32 0x7F800000#32)))
        (constantI ⟨0, ![]⟩ 1 1#1) hr hu ix0 = 1#1) (i : s.Idx) : ∃ r : ℝ, v i = (r : EReal) :=
  real_of_abs_olt_inf (v i) (Host.reduce_andi_all _ _ hr hu ix0 h i)

end Cert.Lib

end
-- ==== Proof.Finite.lean ====
/-
  The precondition, read: every entry of every input is a real number.

  The precondition is the conjunction, input by input, of "every entry's absolute value is below +∞", each conjunct an
  and-reduction over all axes; asserted to be 1, each conjunct is 1, and so every entry of that input is a real number.
-/
import proofs.«149536_g52450140619141_cont_8to1_c_1019_3_alg».proof.Proof.Gen.Pre_finite_inputs
import proofs.«149536_g52450140619141_cont_8to1_c_1019_3_alg».proof.Proof.LibFiniteEntries
import proofs.«149536_g52450140619141_cont_8to1_c_1019_3_alg».proof.Proof.Spec
import Idealize.ShloMosaic.Lib.Affine

noncomputable section

namespace Cert.Pre_finite_inputs.Finite

open Cert.Pre_finite_inputs Cert.Pre_finite_inputs.Gen Cert.Gcn Idealize.ShloMosaic Idealize.ShloMosaic.ValueIdx

/-- Under the precondition every entry of each of the six inputs is a real number. -/
theorem reals (x : FVec Ideal S10000x128 .f32) (adj : FVec Ideal S10000x10000 .f32) (w1 : FVec Ideal S128x128 .f32)
    (b1 : FVec Ideal S128 .f32) (w2 : FVec Ideal S128x64 .f32) (b2 : FVec Ideal S64 .f32)
    (h : fn (F := Ideal) x adj w1 b1 w2 b2 = fun _ => 1#1) :
    (∀ i, IsR (x i)) ∧ (∀ i, IsR (adj i)) ∧ (∀ i, IsR (w1 i)) ∧ (∀ i, IsR (b1 i)) ∧ (∀ i, IsR (w2 i)) ∧ (∀ i, IsR (b2 i)) := by
  have h0 := congrFun h ix0
  dsimp only [fn, fn_part1, andi] at h0
  simp only [IntOp.andi_eq_one] at h0
  obtain ⟨⟨⟨⟨⟨hx, hadj⟩, hw1⟩, hb1⟩, hw2⟩, hb2⟩ := h0
  exact ⟨Cert.Lib.real_of_all_finite x _ _ _ hx, Cert.Lib.real_of_all_finite adj _ _ _ hadj,
    Cert.Lib.real_of_all_finite w1 _ _ _ hw1, Cert.Lib.real_of_all_finite b1 _ _ _ hb1,
    Cert.Lib.real_of_all_finite w2 _ _ _ hw2, Cert.Lib.real_of_all_finite b2 _ _ _ hb2⟩

end Cert.Pre_finite_inputs.Finite

end
-- ==== Proof.lean ====
/-
  A two-layer graph convolution with a row-wise log-softmax, in three kernels, against its array-language reference.

  Both programs compute, from x, adj, w1, b1, w2, b2,

      g = x · w1,   h = max (adj · g + b1, 0),   p = h · w2,   z = adj · p + b2,   out = log-softmax of each row of z,

  with the same grouping of the four matrix products.  The kernel program computes g, p and out in three kernels, each
  over blocks of rows (2000, 400 and 400 rows a point); an entry of a block depends on its own row of the left operand
  only, so each kernel's result array is one function of its input arrays, and the three compose to the network.  The
  reference computes the same stages on whole arrays.  The one difference is the last stage: with M a row's running
  maximum and L = log ∑ₖ exp (zₖ − M), the kernel subtracts M + L from the row, the reference subtracts M and then L.
  On the extended reals −(M + L) = −M − L needs M and L not to be opposite infinities; under the precondition every input
  entry is a real number, hence every entry of z, hence M and L, and the two results are equal entry by entry.
  Nothing was rewritten by the idealization, so the preservation claim is trivial; the three frames are the programs'
  runs with the results dropped.
-/
import proofs.«149536_g52450140619141_cont_8to1_c_1019_3_alg».proof.Defs
import proofs.«149536_g52450140619141_cont_8to1_c_1019_3_alg».proof.Proof.Gen.Kernel
import proofs.«149536_g52450140619141_cont_8to1_c_1019_3_alg».proof.Proof.Gen.Kernel.Skeleton
import proofs.«149536_g52450140619141_cont_8to1_c_1019_3_alg».proof.Proof.Gen.Kernel.Launch
import proofs.«149536_g52450140619141_cont_8to1_c_1019_3_alg».proof.Proof.Gen.Kernel.Points
import proofs.«149536_g52450140619141_cont_8to1_c_1019_3_alg».proof.Proof.Gen.Kernel.Frame
import proofs.«149536_g52450140619141_cont_8to1_c_1019_3_alg».proof.Proof.Gen.KernelIdeal
import proofs.«149536_g52450140619141_cont_8to1_c_1019_3_alg».proof.Proof.Gen.KernelIdeal.Skeleton
import proofs.«149536_g52450140619141_cont_8to1_c_1019_3_alg».proof.Proof.Gen.KernelIdeal.Launch
import proofs.«149536_g52450140619141_cont_8to1_c_1019_3_alg».proof.Proof.Gen.KernelIdeal.Points
import proofs.«149536_g52450140619141_cont_8to1_c_1019_3_alg».proof.Proof.Gen.KernelIdeal.Frame
import proofs.«149536_g52450140619141_cont_8to1_c_1019_3_alg».proof.Proof.Gen.ReferenceIdeal
import proofs.«149536_g52450140619141_cont_8to1_c_1019_3_alg».proof.Proof.Gen.Pre_finite_inputs
import proofs.«149536_g52450140619141_cont_8to1_c_1019_3_alg».proof.Proof.KernelRun
import proofs.«149536_g52450140619141_cont_8to1_c_1019_3_alg».proof.Proof.RefRun
import proofs.«149536_g52450140619141_cont_8to1_c_1019_3_alg».proof.Proof.RefValue
import proofs.«149536_g52450140619141_cont_8to1_c_1019_3_alg».proof.Proof.Finite
import Idealize.ShloMosaic.Adequacy
import Idealize.ShloMosaic.Init

noncomputable section

namespace Cert.Proof

open Idealize.ShloMosaic Idealize.ShloMosaic.ValueIdx Idealize.SL.Sem Cert.Gcn

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Both programs end with the network of the argument arrays: the kernel program with the log-softmax's maximum added
    back to the logarithm, the reference with the row shifted first — one array when every logit is a real number, which
    the precondition gives. -/
theorem algebraic : Cert.algebraic_KernelIdeal_ReferenceIdeal := by
  intro m ρ m' ρ' hpre hagree
  refine ⟨_, Cert.KernelIdeal.Net.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5⟩ := hagree c
  obtain ⟨hx, hadj, hw1, hb1, hw2, hb2⟩ := Cert.Pre_finite_inputs.Finite.reals _ _ _ _ _ _ (hpre c)
  rw [a0, a1, a2, a3, a4, a5, Cert.ReferenceIdeal.RefValue.logitsHost_eq, Cert.ReferenceIdeal.RefValue.lsmHost_eq, net_eq]
  exact lsmRowsShift_eq (by decide) _ (logits_isR _ _ _ _ _ _ hx hadj hw1 (fun j => hb1 _) hw2 (fun j => hb2 _))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
